-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x80x32768 : Shape := ⟨3, ![1, 80, 32768]⟩
abbrev S_ : Shape := ⟨0, ![]⟩

class Facts : Prop where
  bcast_S_S1x80x32768 : S_.BroadcastsInDim S1x80x32768 (![] : Fin 0 → Fin S1x80x32768.rank)
  reducesTo_S1x80x32768_S_d0_1_2 : S1x80x32768.ReducesTo [0, 1, 2] S_
  h_S_ : 0 < S_.numel

variable [Facts]

def fn {F : FTy → Type} [FloatOps F] (main_arg0 : FVec F S1x80x32768 .f32) : IVec S_ 1 :=
  let main_v0 : FVec F S1x80x32768 .f32 := Host.absf main_arg0
  let main_cst : FVec F S_ .f32 := constant S_ .f32 0x7F800000#32
  let main_v1 : FVec F S1x80x32768 .f32 := broadcastInDim S1x80x32768 ![] bcast_S_S1x80x32768 main_cst
  let main_v2 : IVec S1x80x32768 1 := cmpf .olt main_v0 main_v1
  let main_c : IVec S_ 1 := constantI S_ 1 1#1
  let main_v3 : IVec S_ 1 := (fun x v => Host.reduce IntOp.andi x v reducesTo_S1x80x32768_S_d0_1_2 h_S_) main_v2 main_c
  main_v3
-- ==== Kernel.lean ====
abbrev S1x80x32768 : Shape := ⟨3, ![1, 80, 32768]⟩
abbrev S_ : Shape := ⟨0, ![]⟩
abbrev S1x80x34816 : Shape := ⟨3, ![1, 80, 34816]⟩
abbrev S1x1520x32768 : Shape := ⟨3, ![1, 1520, 32768]⟩
abbrev S1x80x1024 : Shape := ⟨3, ![1, 80, 1024]⟩
abbrev S1x1520x1024 : Shape := ⟨3, ![1, 1520, 1024]⟩
abbrev S1x80x3072 : Shape := ⟨3, ![1, 80, 3072]⟩

abbrev nBuf : Space → Nat
  | .hbm => 5
  | .vmem => 8
  | .smem => 0
  | _ => 0

abbrev bufTy : (tb : Table) → Fin (tcTables nBuf tb) → BufTy
  | .hbm, ⟨0, _⟩ => ⟨S1x80x32768, .f32⟩
  | .hbm, ⟨1, _⟩ => ⟨S_, .i32⟩
  | .hbm, ⟨2, _⟩ => ⟨S_, .f32⟩
  | .hbm, ⟨3, _⟩ => ⟨S1x80x34816, .f32⟩
  | .hbm, ⟨4, _⟩ => ⟨S1x1520x32768, .f32⟩
  | .local _ .vmem, ⟨0, _⟩ => ⟨S1x80x1024, .f32⟩
  | .local _ .vmem, ⟨1, _⟩ => ⟨S1x80x1024, .f32⟩
  | .local _ .vmem, ⟨2, _⟩ => ⟨S1x80x1024, .f32⟩
  | .local _ .vmem, ⟨3, _⟩ => ⟨S1x80x1024, .f32⟩
  | .local _ .vmem, ⟨4, _⟩ => ⟨S1x80x1024, .f32⟩
  | .local _ .vmem, ⟨5, _⟩ => ⟨S1x80x1024, .f32⟩
  | .local _ .vmem, ⟨6, _⟩ => ⟨S1x1520x1024, .f32⟩
  | .local _ .vmem, ⟨7, _⟩ => ⟨S1x1520x1024, .f32⟩
  | _, _ => ⟨S1x80x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x80x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1520x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S1x80x32768_S1x80x34816_000_000_102410240 : S1x80x32768.Pads (![0, 0, 1024] : Fin 3 → Nat) ![0, 0, 1024] ![0, 0, 0] S1x80x34816
  h_S_ : 0 < S_.numel
  inb_S1x80x1024_S1x80x1024_0_0_0 : ∀ a, (![0, 0, 0] : Fin 3 → Nat) a + S1x80x1024.size a ≤ S1x80x1024.size a
  h_S1x80x1024 : 0 < S1x80x1024.numel
  shapeCasts_S1x80x1024_S1x80x1024 : S1x80x1024.ShapeCasts S1x80x1024
  concatenates_S1x80x1024_S1x80x1024_S1x80x1024_S1x80x3072_d2 : Shape.Concatenates [S1x80x1024, S1x80x1024, S1x80x1024] S1x80x3072 2
  rotates_S1x80x3072_d2 : S1x80x3072.Rotates 2 none
  slices_S1x80x3072_o0_0_0_S1x80x1024 : S1x80x3072.Slices ![0, 0, 0] S1x80x1024
  inb_S1x1520x1024_S1x80x1024_0_0_0 : ∀ a, (![0, 0, 0] : Fin 3 → Nat) a + S1x80x1024.size a ≤ S1x1520x1024.size a
  inb_S1x1520x1024_S1x80x1024_0_80_0 : ∀ a, (![0, 80, 0] : Fin 3 → Nat) a + S1x80x1024.size a ≤ S1x1520x1024.size a
  inb_S1x1520x1024_S1x80x1024_0_160_0 : ∀ a, (![0, 160, 0] : Fin 3 → Nat) a + S1x80x1024.size a ≤ S1x1520x1024.size a
  inb_S1x1520x1024_S1x80x1024_0_240_0 : ∀ a, (![0, 240, 0] : Fin 3 → Nat) a + S1x80x1024.size a ≤ S1x1520x1024.size a
  inb_S1x1520x1024_S1x80x1024_0_320_0 : ∀ a, (![0, 320, 0] : Fin 3 → Nat) a + S1x80x1024.size a ≤ S1x1520x1024.size a
  inb_S1x1520x1024_S1x80x1024_0_400_0 : ∀ a, (![0, 400, 0] : Fin 3 → Nat) a + S1x80x1024.size a ≤ S1x1520x1024.size a
  inb_S1x1520x1024_S1x80x1024_0_480_0 : ∀ a, (![0, 480, 0] : Fin 3 → Nat) a + S1x80x1024.size a ≤ S1x1520x1024.size a
  inb_S1x1520x1024_S1x80x1024_0_560_0 : ∀ a, (![0, 560, 0] : Fin 3 → Nat) a + S1x80x1024.size a ≤ S1x1520x1024.size a
  inb_S1x1520x1024_S1x80x1024_0_640_0 : ∀ a, (![0, 640, 0] : Fin 3 → Nat) a + S1x80x1024.size a ≤ S1x1520x1024.size a
  inb_S1x1520x1024_S1x80x1024_0_720_0 : ∀ a, (![0, 720, 0] : Fin 3 → Nat) a + S1x80x1024.size a ≤ S1x1520x1024.size a
  inb_S1x1520x1024_S1x80x1024_0_800_0 : ∀ a, (![0, 800, 0] : Fin 3 → Nat) a + S1x80x1024.size a ≤ S1x1520x1024.size a
  inb_S1x1520x1024_S1x80x1024_0_880_0 : ∀ a, (![0, 880, 0] : Fin 3 → Nat) a + S1x80x1024.size a ≤ S1x1520x1024.size a
  inb_S1x1520x1024_S1x80x1024_0_960_0 : ∀ a, (![0, 960, 0] : Fin 3 → Nat) a + S1x80x1024.size a ≤ S1x1520x1024.size a
  inb_S1x1520x1024_S1x80x1024_0_1040_0 : ∀ a, (![0, 1040, 0] : Fin 3 → Nat) a + S1x80x1024.size a ≤ S1x1520x1024.size a
  inb_S1x1520x1024_S1x80x1024_0_1120_0 : ∀ a, (![0, 1120, 0] : Fin 3 → Nat) a + S1x80x1024.size a ≤ S1x1520x1024.size a
  inb_S1x1520x1024_S1x80x1024_0_1200_0 : ∀ a, (![0, 1200, 0] : Fin 3 → Nat) a + S1x80x1024.size a ≤ S1x1520x1024.size a
  inb_S1x1520x1024_S1x80x1024_0_1280_0 : ∀ a, (![0, 1280, 0] : Fin 3 → Nat) a + S1x80x1024.size a ≤ S1x1520x1024.size a
  inb_S1x1520x1024_S1x80x1024_0_1360_0 : ∀ a, (![0, 1360, 0] : Fin 3 → Nat) a + S1x80x1024.size a ≤ S1x1520x1024.size a
  inb_S1x1520x1024_S1x80x1024_0_1440_0 : ∀ a, (![0, 1440, 0] : Fin 3 → Nat) a + S1x80x1024.size a ≤ S1x1520x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x1024.size a ≤ S1x80x34816.size a
  hwx0_0 : ∀ i : grid0.Coords, EltTy.bits .f32 = 32 ∨ (Rect.block (s := S1x80x34816) S1x80x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80x1024.size a ≤ S1x80x34816.size a
  hwx0_1 : ∀ i : grid0.Coords, EltTy.bits .f32 = 32 ∨ (Rect.block (s := S1x80x34816) S1x80x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80x1024.size a ≤ S1x80x34816.size a
  hwx0_2 : ∀ i : grid0.Coords, EltTy.bits .f32 = 32 ∨ (Rect.block (s := S1x80x34816) S1x80x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1520x1024.size a ≤ S1x1520x32768.size a
  hwx0_3 : ∀ i : grid0.Coords, EltTy.bits .f32 = 32 ∨ (Rect.block (s := S1x1520x32768) S1x1520x1024.size (cc0_transform_3 i) (hinb0_3 i)).WholeWords (EltTy.packing .f32)

variable [Facts₀]

abbrev win0_0 : Pipeline.Window sig grid0 :=
  Pipeline.Window.ofSpec (Memref.whole main_v0) S1x80x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x80x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1520x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x80x32768 : Shape := ⟨3, ![1, 80, 32768]⟩
abbrev S80x32768 : Shape := ⟨2, ![80, 32768]⟩
abbrev S32768x80 : Shape := ⟨2, ![32768, 80]⟩
abbrev S_ : Shape := ⟨0, ![]⟩
abbrev S9x80 : Shape := ⟨2, ![9, 80]⟩
abbrev S32786x80 : Shape := ⟨2, ![32786, 80]⟩
abbrev S32768x1x80 : Shape := ⟨3, ![32768, 1, 80]⟩
abbrev S32768x16x80 : Shape := ⟨3, ![32768, 16, 80]⟩
abbrev S32768x3x80 : Shape := ⟨3, ![32768, 3, 80]⟩
abbrev S32768x19x80 : Shape := ⟨3, ![32768, 19, 80]⟩
abbrev S32768x1520 : Shape := ⟨2, ![32768, 1520]⟩
abbrev S1520x32768 : Shape := ⟨2, ![1520, 32768]⟩
abbrev S1x1520x32768 : Shape := ⟨3, ![1, 1520, 32768]⟩

abbrev nBuf : Space → Nat
  | .hbm => 50
  | .vmem => 0
  | .smem => 0
  | _ => 0

abbrev bufTy : (tb : Table) → Fin (tcTables nBuf tb) → BufTy
  | .hbm, ⟨0, _⟩ => ⟨S1x80x32768, .f32⟩
  | .hbm, ⟨1, _⟩ => ⟨S80x32768, .f32⟩
  | .hbm, ⟨2, _⟩ => ⟨S32768x80, .f32⟩
  | .hbm, ⟨3, _⟩ => ⟨S_, .f32⟩
  | .hbm, ⟨4, _⟩ => ⟨S9x80, .f32⟩
  | .hbm, ⟨5, _⟩ => ⟨S32786x80, .f32⟩
  | .hbm, ⟨6, _⟩ => ⟨S32768x80, .f32⟩
  | .hbm, ⟨7, _⟩ => ⟨S32768x80, .f32⟩
  | .hbm, ⟨8, _⟩ => ⟨S32768x80, .f32⟩
  | .hbm, ⟨9, _⟩ => ⟨S32768x80, .f32⟩
  | .hbm, ⟨10, _⟩ => ⟨S32768x80, .f32⟩
  | .hbm, ⟨11, _⟩ => ⟨S32768x80, .f32⟩
  | .hbm, ⟨12, _⟩ => ⟨S32768x80, .f32⟩
  | .hbm, ⟨13, _⟩ => ⟨S32768x80, .f32⟩
  | .hbm, ⟨14, _⟩ => ⟨S32768x80, .f32⟩
  | .hbm, ⟨15, _⟩ => ⟨S32768x80, .f32⟩
  | .hbm, ⟨16, _⟩ => ⟨S32768x80, .f32⟩
  | .hbm, ⟨17, _⟩ => ⟨S32768x80, .f32⟩
  | .hbm, ⟨18, _⟩ => ⟨S32768x80, .f32⟩
  | .hbm, ⟨19, _⟩ => ⟨S32768x80, .f32⟩
  | .hbm, ⟨20, _⟩ => ⟨S32768x80, .f32⟩
  | .hbm, ⟨21, _⟩ => ⟨S32768x80, .f32⟩
  | .hbm, ⟨22, _⟩ => ⟨S32768x80, .f32⟩
  | .hbm, ⟨23, _⟩ => ⟨S32768x80, .f32⟩
  | .hbm, ⟨24, _⟩ => ⟨S32768x80, .f32⟩
  | .hbm, ⟨25, _⟩ => ⟨S32768x1x80, .f32⟩
  | .hbm, ⟨26, _⟩ => ⟨S32768x1x80, .f32⟩
  | .hbm, ⟨27, _⟩ => ⟨S32768x1x80, .f32⟩
  | .hbm, ⟨28, _⟩ => ⟨S32768x1x80, .f32⟩
  | .hbm, ⟨29, _⟩ => ⟨S32768x1x80, .f32⟩
  | .hbm, ⟨30, _⟩ => ⟨S32768x1x80, .f32⟩
  | .hbm, ⟨31, _⟩ => ⟨S32768x1x80, .f32⟩
  | .hbm, ⟨32, _⟩ => ⟨S32768x1x80, .f32⟩
  | .hbm, ⟨33, _⟩ => ⟨S32768x1x80, .f32⟩
  | .hbm, ⟨34, _⟩ => ⟨S32768x1x80, .f32⟩
  | .hbm, ⟨35, _⟩ => ⟨S32768x1x80, .f32⟩
  | .hbm, ⟨36, _⟩ => ⟨S32768x1x80, .f32⟩
  | .hbm, ⟨37, _⟩ => ⟨S32768x1x80, .f32⟩
  | .hbm, ⟨38, _⟩ => ⟨S32768x1x80, .f32⟩
  | .hbm, ⟨39, _⟩ => ⟨S32768x1x80, .f32⟩
  | .hbm, ⟨40, _⟩ => ⟨S32768x1x80, .f32⟩
  | .hbm, ⟨41, _⟩ => ⟨S32768x1x80, .f32⟩
  | .hbm, ⟨42, _⟩ => ⟨S32768x1x80, .f32⟩
  | .hbm, ⟨43, _⟩ => ⟨S32768x1x80, .f32⟩
  | .hbm, ⟨44, _⟩ => ⟨S32768x16x80, .f32⟩
  | .hbm, ⟨45, _⟩ => ⟨S32768x3x80, .f32⟩
  | .hbm, ⟨46, _⟩ => ⟨S32768x19x80, .f32⟩
  | .hbm, ⟨47, _⟩ => ⟨S32768x1520, .f32⟩
  | .hbm, ⟨48, _⟩ => ⟨S1520x32768, .f32⟩
  | .hbm, ⟨49, _⟩ => ⟨S1x1520x32768, .f32⟩
  | _, _ => ⟨S1x80x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩

abbrev nD : Nat := 1
abbrev τ : Topo := Topo.v7x

variable {F : FTy → Type} [FloatOps F]

class Facts₀ : Prop where
  shapeCasts_S1x80x32768_S80x32768 : S1x80x32768.ShapeCasts S80x32768
  transposes_S80x32768_S32768x80_1_0 : S80x32768.Transposes [1, 0] S32768x80
  bcast_S_S9x80 : S_.BroadcastsInDim S9x80 (![] : Fin 0 → Fin S9x80.rank)
  concatenates_S9x80_S32768x80_S9x80_S32786x80_d0 : Shape.Concatenates [S9x80, S32768x80, S9x80] S32786x80 0
  slices_S32786x80_S32768x80_0_0 : S32786x80.Slices ![0, 0] S32768x80
  slices_S32786x80_S32768x80_1_0 : S32786x80.Slices ![1, 0] S32768x80
  slices_S32786x80_S32768x80_2_0 : S32786x80.Slices ![2, 0] S32768x80
  slices_S32786x80_S32768x80_3_0 : S32786x80.Slices ![3, 0] S32768x80
  slices_S32786x80_S32768x80_4_0 : S32786x80.Slices ![4, 0] S32768x80
  slices_S32786x80_S32768x80_5_0 : S32786x80.Slices ![5, 0] S32768x80
  slices_S32786x80_S32768x80_6_0 : S32786x80.Slices ![6, 0] S32768x80
  slices_S32786x80_S32768x80_7_0 : S32786x80.Slices ![7, 0] S32768x80
  slices_S32786x80_S32768x80_8_0 : S32786x80.Slices ![8, 0] S32768x80
  slices_S32786x80_S32768x80_9_0 : S32786x80.Slices ![9, 0] S32768x80
  slices_S32786x80_S32768x80_10_0 : S32786x80.Slices ![10, 0] S32768x80
  slices_S32786x80_S32768x80_11_0 : S32786x80.Slices ![11, 0] S32768x80
  slices_S32786x80_S32768x80_12_0 : S32786x80.Slices ![12, 0] S32768x80
  slices_S32786x80_S32768x80_13_0 : S32786x80.Slices ![13, 0] S32768x80
  slices_S32786x80_S32768x80_14_0 : S32786x80.Slices ![14, 0] S32768x80
  slices_S32786x80_S32768x80_15_0 : S32786x80.Slices ![15, 0] S32768x80
  slices_S32786x80_S32768x80_16_0 : S32786x80.Slices ![16, 0] S32768x80
  slices_S32786x80_S32768x80_17_0 : S32786x80.Slices ![17, 0] S32768x80
  slices_S32786x80_S32768x80_18_0 : S32786x80.Slices ![18, 0] S32768x80
  bcast_S32768x80_S32768x1x80_0_2 : S32768x80.BroadcastsInDim S32768x1x80 (![0, 2] : Fin 2 → Fin S32768x1x80.rank)
  concatenates_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x16x80_d1 : Shape.Concatenates [S32768x1x80, S32768x1x80, S32768x1x80, S32768x1x80, S32768x1x80, S32768x1x80, S32768x1x80, S32768x1x80, S32768x1x80, S32768x1x80, S32768x1x80, S32768x1x80, S32768x1x80, S32768x1x80, S32768x1x80, S32768x1x80] S32768x16x80 1
  concatenates_S32768x1x80_S32768x1x80_S32768x1x80_S32768x3x80_d1 : Shape.Concatenates [S32768x1x80, S32768x1x80, S32768x1x80] S32768x3x80 1
  concatenates_S32768x16x80_S32768x3x80_S32768x19x80_d1 : Shape.Concatenates [S32768x16x80, S32768x3x80] S32768x19x80 1
  shapeCasts_S32768x19x80_S32768x1520 : S32768x19x80.ShapeCasts S32768x1520
  transposes_S32768x1520_S1520x32768_1_0 : S32768x1520.Transposes [1, 0] S1520x32768
  bcast_S1520x32768_S1x1520x32768_1_2 : S1520x32768.BroadcastsInDim S1x1520x32768 (![1, 2] : Fin 2 → Fin S1x1520x32768.rank)

variable [Facts₀]

class Facts : Prop extends Facts₀ where

variable [Facts]
-- ==== Proof.KernelFrame.lean ====
/-
  The frame of the kernel program as printed, read at any float instance: the program runs to the end, nothing faults, and the signal it was given is unchanged.

  The program pads the signal on the host, then runs one pipelined region over 32 grid points. At point i three input
  windows hold blocks i, i + 1 and i + 2 of the SAME padded array, 1024 steps each, and the body lays the three side
  by side, rotates the 3072 lanes by 2057 − w for w = 0 … 18, keeps the first 1024 lanes of each rotation and stores
  it as rows 80 w … 80 w + 79 of the output block. The nineteen stores tile the output block, so after the body the
  block holds a function of the three input blocks alone (`stacked`).

  The three input windows read one array. The array's ownership is therefore dealt among them: a half, a quarter and
  a quarter. Reading needs no more than a part, and the output array, which alone is written, is held whole.
-/
import proofs.«145936_j53283364274940_2_alg».proof.Proof.Gen.Kernel.Launch
import proofs.«145936_j53283364274940_2_alg».proof.Proof.Gen.Kernel.Skeleton
import proofs.«145936_j53283364274940_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s arrays hold when the region is entered: the launch contents after the zero constant, its
    conversion to a float and the padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the region is those two stretches of host operations. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the signal: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole of an input block: one batch, 80 features, 1024 lanes. -/
abbrev lanes : Rect S1x80x1024 := Rect.unit (s := S1x80x1024) ![0, 0, 0] S1x80x1024.size inb_S1x80x1024_S1x80x1024_0_0_0
abbrev rows0 : Rect S1x1520x1024 := Rect.unit (s := S1x1520x1024) ![0, 0, 0] S1x80x1024.size inb_S1x1520x1024_S1x80x1024_0_0_0
abbrev rows1 : Rect S1x1520x1024 := Rect.unit (s := S1x1520x1024) ![0, 80, 0] S1x80x1024.size inb_S1x1520x1024_S1x80x1024_0_80_0
abbrev rows2 : Rect S1x1520x1024 := Rect.unit (s := S1x1520x1024) ![0, 160, 0] S1x80x1024.size inb_S1x1520x1024_S1x80x1024_0_160_0
abbrev rows3 : Rect S1x1520x1024 := Rect.unit (s := S1x1520x1024) ![0, 240, 0] S1x80x1024.size inb_S1x1520x1024_S1x80x1024_0_240_0
abbrev rows4 : Rect S1x1520x1024 := Rect.unit (s := S1x1520x1024) ![0, 320, 0] S1x80x1024.size inb_S1x1520x1024_S1x80x1024_0_320_0
abbrev rows5 : Rect S1x1520x1024 := Rect.unit (s := S1x1520x1024) ![0, 400, 0] S1x80x1024.size inb_S1x1520x1024_S1x80x1024_0_400_0
abbrev rows6 : Rect S1x1520x1024 := Rect.unit (s := S1x1520x1024) ![0, 480, 0] S1x80x1024.size inb_S1x1520x1024_S1x80x1024_0_480_0
abbrev rows7 : Rect S1x1520x1024 := Rect.unit (s := S1x1520x1024) ![0, 560, 0] S1x80x1024.size inb_S1x1520x1024_S1x80x1024_0_560_0
abbrev rows8 : Rect S1x1520x1024 := Rect.unit (s := S1x1520x1024) ![0, 640, 0] S1x80x1024.size inb_S1x1520x1024_S1x80x1024_0_640_0
abbrev rows9 : Rect S1x1520x1024 := Rect.unit (s := S1x1520x1024) ![0, 720, 0] S1x80x1024.size inb_S1x1520x1024_S1x80x1024_0_720_0
abbrev rows10 : Rect S1x1520x1024 := Rect.unit (s := S1x1520x1024) ![0, 800, 0] S1x80x1024.size inb_S1x1520x1024_S1x80x1024_0_800_0
abbrev rows11 : Rect S1x1520x1024 := Rect.unit (s := S1x1520x1024) ![0, 880, 0] S1x80x1024.size inb_S1x1520x1024_S1x80x1024_0_880_0
abbrev rows12 : Rect S1x1520x1024 := Rect.unit (s := S1x1520x1024) ![0, 960, 0] S1x80x1024.size inb_S1x1520x1024_S1x80x1024_0_960_0
abbrev rows13 : Rect S1x1520x1024 := Rect.unit (s := S1x1520x1024) ![0, 1040, 0] S1x80x1024.size inb_S1x1520x1024_S1x80x1024_0_1040_0
abbrev rows14 : Rect S1x1520x1024 := Rect.unit (s := S1x1520x1024) ![0, 1120, 0] S1x80x1024.size inb_S1x1520x1024_S1x80x1024_0_1120_0
abbrev rows15 : Rect S1x1520x1024 := Rect.unit (s := S1x1520x1024) ![0, 1200, 0] S1x80x1024.size inb_S1x1520x1024_S1x80x1024_0_1200_0
abbrev rows16 : Rect S1x1520x1024 := Rect.unit (s := S1x1520x1024) ![0, 1280, 0] S1x80x1024.size inb_S1x1520x1024_S1x80x1024_0_1280_0
abbrev rows17 : Rect S1x1520x1024 := Rect.unit (s := S1x1520x1024) ![0, 1360, 0] S1x80x1024.size inb_S1x1520x1024_S1x80x1024_0_1360_0
abbrev rows18 : Rect S1x1520x1024 := Rect.unit (s := S1x1520x1024) ![0, 1440, 0] S1x80x1024.size inb_S1x1520x1024_S1x80x1024_0_1440_0

/-! ## What the body leaves in the output block -/

/-- The three input blocks side by side: 3072 lanes. -/
def joined (x0 x1 x2 : Vec F S1x80x1024 .f32) : FVec F S1x80x3072 .f32 :=
  k0_pay7 (View.ld x0 lanes) (View.ld x1 lanes) (View.ld x2 lanes)

/-- The output block after the body, from the three input blocks: its nineteen stores, the last first. -/
def stacked (x0 x1 x2 : Vec F S1x80x1024 .f32) : Vec F S1x1520x1024 .f32 :=
  View.canon [
    ⟨rows18, k0_pay6 (joined x0 x1 x2)⟩,
    ⟨rows17, k0_pay5 (joined x0 x1 x2)⟩,
    ⟨rows16, k0_pay4 (joined x0 x1 x2)⟩,
    ⟨rows15, k0_pay3 (joined x0 x1 x2)⟩,
    ⟨rows14, k0_pay2 (joined x0 x1 x2)⟩,
    ⟨rows13, k0_pay1 (joined x0 x1 x2)⟩,
    ⟨rows12, k0_pay20 (joined x0 x1 x2)⟩,
    ⟨rows11, k0_pay19 (joined x0 x1 x2)⟩,
    ⟨rows10, k0_pay18 (joined x0 x1 x2)⟩,
    ⟨rows9, k0_pay17 (joined x0 x1 x2)⟩,
    ⟨rows8, k0_pay16 (joined x0 x1 x2)⟩,
    ⟨rows7, k0_pay15 (joined x0 x1 x2)⟩,
    ⟨rows6, k0_pay14 (joined x0 x1 x2)⟩,
    ⟨rows5, k0_pay13 (View.ld x0 lanes) (View.ld x1 lanes) (View.ld x2 lanes)⟩,
    ⟨rows4, k0_pay12 (View.ld x0 lanes) (View.ld x1 lanes) (View.ld x2 lanes)⟩,
    ⟨rows3, k0_pay11 (View.ld x0 lanes) (View.ld x1 lanes) (View.ld x2 lanes)⟩,
    ⟨rows2, k0_pay10 (View.ld x0 lanes) (View.ld x1 lanes) (View.ld x2 lanes)⟩,
    ⟨rows1, k0_pay9 (View.ld x0 lanes) (View.ld x1 lanes) (View.ld x2 lanes)⟩,
    ⟨rows0, k0_pay8 (View.ld x0 lanes) (View.ld x1 lanes) (View.ld x2 lanes)⟩]

/-- Nineteen bands of 80 rows tile the 1520 rows, so the stores cover the block. -/
theorem bands_cover (p0 : Vec F S1x80x1024 .f32) (p1 : Vec F S1x80x1024 .f32) (p2 : Vec F S1x80x1024 .f32) (p3 : Vec F S1x80x1024 .f32) (p4 : Vec F S1x80x1024 .f32) (p5 : Vec F S1x80x1024 .f32) (p6 : Vec F S1x80x1024 .f32) (p7 : Vec F S1x80x1024 .f32) (p8 : Vec F S1x80x1024 .f32) (p9 : Vec F S1x80x1024 .f32) (p10 : Vec F S1x80x1024 .f32) (p11 : Vec F S1x80x1024 .f32) (p12 : Vec F S1x80x1024 .f32) (p13 : Vec F S1x80x1024 .f32) (p14 : Vec F S1x80x1024 .f32) (p15 : Vec F S1x80x1024 .f32) (p16 : Vec F S1x80x1024 .f32) (p17 : Vec F S1x80x1024 .f32) (p18 : Vec F S1x80x1024 .f32) (y : S1x1520x1024.Idx) :
    ∃ pc ∈ ([⟨rows18, p18⟩, ⟨rows17, p17⟩, ⟨rows16, p16⟩, ⟨rows15, p15⟩, ⟨rows14, p14⟩, ⟨rows13, p13⟩, ⟨rows12, p12⟩, ⟨rows11, p11⟩, ⟨rows10, p10⟩, ⟨rows9, p9⟩, ⟨rows8, p8⟩, ⟨rows7, p7⟩, ⟨rows6, p6⟩, ⟨rows5, p5⟩, ⟨rows4, p4⟩, ⟨rows3, p3⟩, ⟨rows2, p2⟩, ⟨rows1, p1⟩, ⟨rows0, p0⟩] : List (View.Piece (Elt F) S1x1520x1024 .f32)), y ∈ pc.1.set :=
  View.cover_of_tiled [⟨rows18, p18⟩, ⟨rows17, p17⟩, ⟨rows16, p16⟩, ⟨rows15, p15⟩, ⟨rows14, p14⟩, ⟨rows13, p13⟩, ⟨rows12, p12⟩, ⟨rows11, p11⟩, ⟨rows10, p10⟩, ⟨rows9, p9⟩, ⟨rows8, p8⟩, ⟨rows7, p7⟩, ⟨rows6, p6⟩, ⟨rows5, p5⟩, ⟨rows4, p4⟩, ⟨rows3, p3⟩, ⟨rows2, p2⟩, ⟨rows1, p1⟩, ⟨rows0, p0⟩] S1x80x1024.size (by rfl) y

/-! ## The body's triple -/

set_option maxHeartbeats 1000000 in
/-- The body on whole staging memrefs — the three inputs' reading `x0 x1 x2`, the output's holding anything — runs
    to the end with the inputs' as they were and the output's reading `stacked x0 x1 x2`: it loads each input whole,
    and each of its nineteen stores writes one band of rows; between two stores it loads the band it is about to
    overwrite and uses nothing of it. -/
theorem sound_kernel (c : Dev nD) (E : Set ℕ) (i : grid0.Coords)
    (arg1 : Memref sig .tc .vmem S1x80x1024 .f32) (harg1 : arg1.IsWhole) (arg2 : Memref sig .tc .vmem S1x80x1024 .f32) (harg2 : arg2.IsWhole)
    (arg3 : Memref sig .tc .vmem S1x80x1024 .f32) (harg3 : arg3.IsWhole) (arg4 : Memref sig .tc .vmem S1x1520x1024 .f32) (harg4 : arg4.IsWhole)
    (x0 x1 x2 : Vec F S1x80x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stacked x0 x1 x2)) -∗ K ⟨⟩))
      ⊢ wp frame (wpE (defs₀ (F := F)) Variants.none c none) E (cc0__add_context_kernel i arg1 harg1 arg2 harg2 arg3 harg3 arg4 harg4) K := by
  simp only [cc0__add_context_kernel_eq_skeleton]; unfold cc0__add_context_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (bands_cover _ _ _ _ _ _ _ _ _ _ _ _ _ _ _ _ _ _ _)

/-! ## The pipeline's proof data -/

/-- On core `c`: the arrays as the region finds them; after the body at point `t` each input window's buffer still
    at its block and the output window's at `stacked` of the three blocks; nothing carried between points; nothing
    owed; the padded array's ownership dealt a half, a quarter and a quarter among the three windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stacked (iblk m c 0 t) (iblk m c 1 t) (iblk m c 2 t)
  Φ _ := iprop(emp)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = stacked (iblk m c 0 t) (iblk m c 1 t) (iblk m c 2 t) := by dsimp only [dats]

/-- An input window's current buffer holds its block at every point: the body leaves the block in place, and a point
    that does not fetch has not moved the window. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; what the core owes
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The padded array, held whole, is dealt to the three windows that read it — a half, a quarter, a quarter — and
    the output array goes whole to its one window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : Finset.univ.image (Pipeline.arrRef spec0) = ({main_v0, main_v1} : Finset (Ref sig .tc)) := by decide
  have hs : ∀ w : Fin cfg0.W, (cfg0.win w).arr.view.set = Finset.univ := fun w => (arr_whole0 w).set_eq_univ
  unfold Pipeline.arrBufs Dat.arrays
  rw [e0, bigSep_insert (by decide), bigSep_singleton, bigSep_W0, hs 0, hs 3]
  show iprop((((c : Thread nD τ).loc main_v0) ↦{fullShare} V m c main_v0) ∗ (((c : Thread nD τ).loc main_v1) ↦{fullShare} V m c main_v1))
    ⊢ (iprop((((c : Thread nD τ).loc main_v0) ↦{fullShare.left} V m c main_v0)
        ∗ (((c : Thread nD τ).loc main_v0) ↦{fullShare.right.left} V m c main_v0)
        ∗ (((c : Thread nD τ).loc main_v0) ↦{fullShare.right.right} V m c main_v0)
        ∗ (((c : Thread nD τ).loc main_v1) ↦{fullShare} V m c main_v1)) : sProp 𝕄)
  iintro ⟨H0, H1⟩
  ihave H0' := (pointsTo_share (PosShare.mem_left_op_right fullShare)).1 $$ H0
  icases H0' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H1

/-- What the run ends with: every window's array at what the write-backs leave, and every other array of the program
    as the region found it. -/
def Post (r : PUnit × MemSt nD τ sig (Elt F)) : Prop :=
  ∀ c : Dev nD, (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with every counter at zero, every weakly fair execution of the program terminates, nothing
    faulting, in a state satisfying `Post`. -/
theorem run_main : θ_run defs (onTc (τ := τ) (main (F := F))) (s₀ m ρ) (Post m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [scopedRest0_eq]; iintro ⟨-, -⟩; iempintro)
    (hout := fun c => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the signal ends as it was launched. It is no window's array (the windows read its padded copy), so
    it passes the region by, and no host operation writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 rfl (by decide))).trans (V_main_arg0 m c))
    (run_main m ρ)

end Cert.Kernel.Hand

end
-- ==== Proof.IdealFrame.lean ====
/-
  The frame of the idealized kernel program: the program runs to the end, nothing faults, and the signal it was given is unchanged.

  The program pads the signal on the host, then runs one pipelined region over 32 grid points. At point i three input
  windows hold blocks i, i + 1 and i + 2 of the SAME padded array, 1024 steps each, and the body lays the three side
  by side, rotates the 3072 lanes by 2057 − w for w = 0 … 18, keeps the first 1024 lanes of each rotation and stores
  it as rows 80 w … 80 w + 79 of the output block. The nineteen stores tile the output block, so after the body the
  block holds a function of the three input blocks alone (`stacked`).

  The three input windows read one array. The array's ownership is therefore dealt among them: a half, a quarter and
  a quarter. Reading needs no more than a part, and the output array, which alone is written, is held whole.
-/
import proofs.«145936_j53283364274940_2_alg».proof.Proof.Gen.KernelIdeal.Launch
import proofs.«145936_j53283364274940_2_alg».proof.Proof.Gen.KernelIdeal.Skeleton
import proofs.«145936_j53283364274940_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s arrays hold when the region is entered: the launch contents after the zero constant, its
    conversion to a float and the padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the region is those two stretches of host operations. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the signal: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole of an input block: one batch, 80 features, 1024 lanes. -/
abbrev lanes : Rect S1x80x1024 := Rect.unit (s := S1x80x1024) ![0, 0, 0] S1x80x1024.size inb_S1x80x1024_S1x80x1024_0_0_0
abbrev rows0 : Rect S1x1520x1024 := Rect.unit (s := S1x1520x1024) ![0, 0, 0] S1x80x1024.size inb_S1x1520x1024_S1x80x1024_0_0_0
abbrev rows1 : Rect S1x1520x1024 := Rect.unit (s := S1x1520x1024) ![0, 80, 0] S1x80x1024.size inb_S1x1520x1024_S1x80x1024_0_80_0
abbrev rows2 : Rect S1x1520x1024 := Rect.unit (s := S1x1520x1024) ![0, 160, 0] S1x80x1024.size inb_S1x1520x1024_S1x80x1024_0_160_0
abbrev rows3 : Rect S1x1520x1024 := Rect.unit (s := S1x1520x1024) ![0, 240, 0] S1x80x1024.size inb_S1x1520x1024_S1x80x1024_0_240_0
abbrev rows4 : Rect S1x1520x1024 := Rect.unit (s := S1x1520x1024) ![0, 320, 0] S1x80x1024.size inb_S1x1520x1024_S1x80x1024_0_320_0
abbrev rows5 : Rect S1x1520x1024 := Rect.unit (s := S1x1520x1024) ![0, 400, 0] S1x80x1024.size inb_S1x1520x1024_S1x80x1024_0_400_0
abbrev rows6 : Rect S1x1520x1024 := Rect.unit (s := S1x1520x1024) ![0, 480, 0] S1x80x1024.size inb_S1x1520x1024_S1x80x1024_0_480_0
abbrev rows7 : Rect S1x1520x1024 := Rect.unit (s := S1x1520x1024) ![0, 560, 0] S1x80x1024.size inb_S1x1520x1024_S1x80x1024_0_560_0
abbrev rows8 : Rect S1x1520x1024 := Rect.unit (s := S1x1520x1024) ![0, 640, 0] S1x80x1024.size inb_S1x1520x1024_S1x80x1024_0_640_0
abbrev rows9 : Rect S1x1520x1024 := Rect.unit (s := S1x1520x1024) ![0, 720, 0] S1x80x1024.size inb_S1x1520x1024_S1x80x1024_0_720_0
abbrev rows10 : Rect S1x1520x1024 := Rect.unit (s := S1x1520x1024) ![0, 800, 0] S1x80x1024.size inb_S1x1520x1024_S1x80x1024_0_800_0
abbrev rows11 : Rect S1x1520x1024 := Rect.unit (s := S1x1520x1024) ![0, 880, 0] S1x80x1024.size inb_S1x1520x1024_S1x80x1024_0_880_0
abbrev rows12 : Rect S1x1520x1024 := Rect.unit (s := S1x1520x1024) ![0, 960, 0] S1x80x1024.size inb_S1x1520x1024_S1x80x1024_0_960_0
abbrev rows13 : Rect S1x1520x1024 := Rect.unit (s := S1x1520x1024) ![0, 1040, 0] S1x80x1024.size inb_S1x1520x1024_S1x80x1024_0_1040_0
abbrev rows14 : Rect S1x1520x1024 := Rect.unit (s := S1x1520x1024) ![0, 1120, 0] S1x80x1024.size inb_S1x1520x1024_S1x80x1024_0_1120_0
abbrev rows15 : Rect S1x1520x1024 := Rect.unit (s := S1x1520x1024) ![0, 1200, 0] S1x80x1024.size inb_S1x1520x1024_S1x80x1024_0_1200_0
abbrev rows16 : Rect S1x1520x1024 := Rect.unit (s := S1x1520x1024) ![0, 1280, 0] S1x80x1024.size inb_S1x1520x1024_S1x80x1024_0_1280_0
abbrev rows17 : Rect S1x1520x1024 := Rect.unit (s := S1x1520x1024) ![0, 1360, 0] S1x80x1024.size inb_S1x1520x1024_S1x80x1024_0_1360_0
abbrev rows18 : Rect S1x1520x1024 := Rect.unit (s := S1x1520x1024) ![0, 1440, 0] S1x80x1024.size inb_S1x1520x1024_S1x80x1024_0_1440_0

/-! ## What the body leaves in the output block -/

/-- The three input blocks side by side: 3072 lanes. -/
def joined (x0 x1 x2 : Vec F S1x80x1024 .f32) : FVec F S1x80x3072 .f32 :=
  k0_pay7 (View.ld x0 lanes) (View.ld x1 lanes) (View.ld x2 lanes)

/-- The output block after the body, from the three input blocks: its nineteen stores, the last first. -/
def stacked (x0 x1 x2 : Vec F S1x80x1024 .f32) : Vec F S1x1520x1024 .f32 :=
  View.canon [
    ⟨rows18, k0_pay6 (joined x0 x1 x2)⟩,
    ⟨rows17, k0_pay5 (joined x0 x1 x2)⟩,
    ⟨rows16, k0_pay4 (joined x0 x1 x2)⟩,
    ⟨rows15, k0_pay3 (joined x0 x1 x2)⟩,
    ⟨rows14, k0_pay2 (joined x0 x1 x2)⟩,
    ⟨rows13, k0_pay1 (joined x0 x1 x2)⟩,
    ⟨rows12, k0_pay20 (joined x0 x1 x2)⟩,
    ⟨rows11, k0_pay19 (joined x0 x1 x2)⟩,
    ⟨rows10, k0_pay18 (joined x0 x1 x2)⟩,
    ⟨rows9, k0_pay17 (joined x0 x1 x2)⟩,
    ⟨rows8, k0_pay16 (joined x0 x1 x2)⟩,
    ⟨rows7, k0_pay15 (joined x0 x1 x2)⟩,
    ⟨rows6, k0_pay14 (joined x0 x1 x2)⟩,
    ⟨rows5, k0_pay13 (View.ld x0 lanes) (View.ld x1 lanes) (View.ld x2 lanes)⟩,
    ⟨rows4, k0_pay12 (View.ld x0 lanes) (View.ld x1 lanes) (View.ld x2 lanes)⟩,
    ⟨rows3, k0_pay11 (View.ld x0 lanes) (View.ld x1 lanes) (View.ld x2 lanes)⟩,
    ⟨rows2, k0_pay10 (View.ld x0 lanes) (View.ld x1 lanes) (View.ld x2 lanes)⟩,
    ⟨rows1, k0_pay9 (View.ld x0 lanes) (View.ld x1 lanes) (View.ld x2 lanes)⟩,
    ⟨rows0, k0_pay8 (View.ld x0 lanes) (View.ld x1 lanes) (View.ld x2 lanes)⟩]

/-- Nineteen bands of 80 rows tile the 1520 rows, so the stores cover the block. -/
theorem bands_cover (p0 : Vec F S1x80x1024 .f32) (p1 : Vec F S1x80x1024 .f32) (p2 : Vec F S1x80x1024 .f32) (p3 : Vec F S1x80x1024 .f32) (p4 : Vec F S1x80x1024 .f32) (p5 : Vec F S1x80x1024 .f32) (p6 : Vec F S1x80x1024 .f32) (p7 : Vec F S1x80x1024 .f32) (p8 : Vec F S1x80x1024 .f32) (p9 : Vec F S1x80x1024 .f32) (p10 : Vec F S1x80x1024 .f32) (p11 : Vec F S1x80x1024 .f32) (p12 : Vec F S1x80x1024 .f32) (p13 : Vec F S1x80x1024 .f32) (p14 : Vec F S1x80x1024 .f32) (p15 : Vec F S1x80x1024 .f32) (p16 : Vec F S1x80x1024 .f32) (p17 : Vec F S1x80x1024 .f32) (p18 : Vec F S1x80x1024 .f32) (y : S1x1520x1024.Idx) :
    ∃ pc ∈ ([⟨rows18, p18⟩, ⟨rows17, p17⟩, ⟨rows16, p16⟩, ⟨rows15, p15⟩, ⟨rows14, p14⟩, ⟨rows13, p13⟩, ⟨rows12, p12⟩, ⟨rows11, p11⟩, ⟨rows10, p10⟩, ⟨rows9, p9⟩, ⟨rows8, p8⟩, ⟨rows7, p7⟩, ⟨rows6, p6⟩, ⟨rows5, p5⟩, ⟨rows4, p4⟩, ⟨rows3, p3⟩, ⟨rows2, p2⟩, ⟨rows1, p1⟩, ⟨rows0, p0⟩] : List (View.Piece (Elt F) S1x1520x1024 .f32)), y ∈ pc.1.set :=
  View.cover_of_tiled [⟨rows18, p18⟩, ⟨rows17, p17⟩, ⟨rows16, p16⟩, ⟨rows15, p15⟩, ⟨rows14, p14⟩, ⟨rows13, p13⟩, ⟨rows12, p12⟩, ⟨rows11, p11⟩, ⟨rows10, p10⟩, ⟨rows9, p9⟩, ⟨rows8, p8⟩, ⟨rows7, p7⟩, ⟨rows6, p6⟩, ⟨rows5, p5⟩, ⟨rows4, p4⟩, ⟨rows3, p3⟩, ⟨rows2, p2⟩, ⟨rows1, p1⟩, ⟨rows0, p0⟩] S1x80x1024.size (by rfl) y

/-! ## The body's triple -/

set_option maxHeartbeats 1000000 in
/-- The body on whole staging memrefs — the three inputs' reading `x0 x1 x2`, the output's holding anything — runs
    to the end with the inputs' as they were and the output's reading `stacked x0 x1 x2`: it loads each input whole,
    and each of its nineteen stores writes one band of rows; between two stores it loads the band it is about to
    overwrite and uses nothing of it. -/
theorem sound_kernel (c : Dev nD) (E : Set ℕ) (i : grid0.Coords)
    (arg1 : Memref sig .tc .vmem S1x80x1024 .f32) (harg1 : arg1.IsWhole) (arg2 : Memref sig .tc .vmem S1x80x1024 .f32) (harg2 : arg2.IsWhole)
    (arg3 : Memref sig .tc .vmem S1x80x1024 .f32) (harg3 : arg3.IsWhole) (arg4 : Memref sig .tc .vmem S1x1520x1024 .f32) (harg4 : arg4.IsWhole)
    (x0 x1 x2 : Vec F S1x80x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stacked x0 x1 x2)) -∗ K ⟨⟩))
      ⊢ wp frame (wpE (defs₀ (F := F)) Variants.none c none) E (cc0__add_context_kernel i arg1 harg1 arg2 harg2 arg3 harg3 arg4 harg4) K := by
  simp only [cc0__add_context_kernel_eq_skeleton]; unfold cc0__add_context_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (bands_cover _ _ _ _ _ _ _ _ _ _ _ _ _ _ _ _ _ _ _)

/-! ## The pipeline's proof data -/

/-- On core `c`: the arrays as the region finds them; after the body at point `t` each input window's buffer still
    at its block and the output window's at `stacked` of the three blocks; nothing carried between points; nothing
    owed; the padded array's ownership dealt a half, a quarter and a quarter among the three windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stacked (iblk m c 0 t) (iblk m c 1 t) (iblk m c 2 t)
  Φ _ := iprop(emp)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = stacked (iblk m c 0 t) (iblk m c 1 t) (iblk m c 2 t) := by dsimp only [dats]

/-- An input window's current buffer holds its block at every point: the body leaves the block in place, and a point
    that does not fetch has not moved the window. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; what the core owes
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The padded array, held whole, is dealt to the three windows that read it — a half, a quarter, a quarter — and
    the output array goes whole to its one window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : Finset.univ.image (Pipeline.arrRef spec0) = ({main_v0, main_v1} : Finset (Ref sig .tc)) := by decide
  have hs : ∀ w : Fin cfg0.W, (cfg0.win w).arr.view.set = Finset.univ := fun w => (arr_whole0 w).set_eq_univ
  unfold Pipeline.arrBufs Dat.arrays
  rw [e0, bigSep_insert (by decide), bigSep_singleton, bigSep_W0, hs 0, hs 3]
  show iprop((((c : Thread nD τ).loc main_v0) ↦{fullShare} V m c main_v0) ∗ (((c : Thread nD τ).loc main_v1) ↦{fullShare} V m c main_v1))
    ⊢ (iprop((((c : Thread nD τ).loc main_v0) ↦{fullShare.left} V m c main_v0)
        ∗ (((c : Thread nD τ).loc main_v0) ↦{fullShare.right.left} V m c main_v0)
        ∗ (((c : Thread nD τ).loc main_v0) ↦{fullShare.right.right} V m c main_v0)
        ∗ (((c : Thread nD τ).loc main_v1) ↦{fullShare} V m c main_v1)) : sProp 𝕄)
  iintro ⟨H0, H1⟩
  ihave H0' := (pointsTo_share (PosShare.mem_left_op_right fullShare)).1 $$ H0
  icases H0' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H1

/-- What the run ends with: every window's array at what the write-backs leave, and every other array of the program
    as the region found it. -/
def Post (r : PUnit × MemSt nD τ sig (Elt F)) : Prop :=
  ∀ c : Dev nD, (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with every counter at zero, every weakly fair execution of the program terminates, nothing
    faulting, in a state satisfying `Post`. -/
theorem run_main : θ_run defs (onTc (τ := τ) (main (F := F))) (s₀ m ρ) (Post m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [scopedRest0_eq]; iintro ⟨-, -⟩; iempintro)
    (hout := fun c => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the signal ends as it was launched. It is no window's array (the windows read its padded copy), so
    it passes the region by, and no host operation writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 rfl (by decide))).trans (V_main_arg0 m c))
    (run_main m ρ)

end Cert.KernelIdeal.Hand

end
-- ==== Proof.Spec.lean ====
/-
  What both programs compute. A signal of 80 features over 32768 steps becomes 19 · 80 = 1520 rows over the same
  steps: row w · 80 + f at step t is feature f at step t + w − 9, the signal seen through a window of 19 steps
  centred on t, and a fixed filler where that step falls before the first step or after the last.

  The kernel reaches the same array through a copy of the signal with 1024 filler steps on each side: step p of the
  copy is step p − 1024 of the signal. Row w · 80 + f at step t is then step t + w + 1015 of the copy, and the two
  descriptions agree because 1015 = 1024 − 9.
-/
import Idealize.ShloMosaic.Lib.ValueIdx

namespace Cert.Context

open Idealize.ShloMosaic Idealize.ShloMosaic.ValueIdx

/-- The signal: one batch, 80 features, 32768 steps. -/
abbrev SIn : Shape := ⟨3, ![1, 80, 32768]⟩
/-- The signal with 1024 filler steps before and after. -/
abbrev SPad : Shape := ⟨3, ![1, 80, 34816]⟩
/-- The result: one batch, 1520 rows, 32768 steps. -/
abbrev SOut : Shape := ⟨3, ![1, 1520, 32768]⟩

variable {α : Type}

/-- Row `r` at step `t` is feature `r mod 80` at step `t + r / 80 − 9` when the signal has that step, `z` otherwise. -/
def frames (z : α) (x : SIn.Idx → α) : SOut.Idx → α := fun j =>
  if h : 9 ≤ (j 2).val + (j 1).val / 80 ∧ (j 2).val + (j 1).val / 80 < 32777 then
    x (ix3 (0 : Fin 1) (⟨(j 1).val % 80, Nat.mod_lt _ (by decide)⟩ : Fin 80)
      (⟨(j 2).val + (j 1).val / 80 - 9, by omega⟩ : Fin 32768))
  else z

/-- The padded copy: step `p` is step `p − 1024` of the signal when `1024 ≤ p < 33792`, `z` otherwise. -/
def padded (z : α) (x : SIn.Idx → α) : SPad.Idx → α := fun j =>
  if h : 1024 ≤ (j 2).val ∧ (j 2).val < 33792 then
    x (ix3 (0 : Fin 1) (⟨(j 1).val, (j 1).isLt⟩ : Fin 80) (⟨(j 2).val - 1024, by omega⟩ : Fin 32768))
  else z

/-- `frames` at coordinates: window `w`, feature `f`, step `t`. -/
theorem frames_apply (z : α) (x : SIn.Idx → α) (w : Fin 19) (f : Fin 80) (t : Fin 32768) (r : Fin 1520)
    (hr : r.val = w.val * 80 + f.val) :
    frames z x (ix3 (0 : Fin 1) r t)
      = if h : 9 ≤ t.val + w.val ∧ t.val + w.val < 32777 then x (ix3 (0 : Fin 1) f (⟨t.val + w.val - 9, by omega⟩ : Fin 32768)) else z := by
  have hf : f.val < 80 := f.isLt
  have hw : r.val / 80 = w.val := by omega
  have hm : r.val % 80 = f.val := by omega
  unfold frames
  show (if h : 9 ≤ t.val + r.val / 80 ∧ t.val + r.val / 80 < 32777 then
      x (ix3 (0 : Fin 1) (⟨r.val % 80, Nat.mod_lt _ (by decide)⟩ : Fin 80) (⟨t.val + r.val / 80 - 9, by omega⟩ : Fin 32768)) else z) = _
  by_cases h : 9 ≤ t.val + w.val ∧ t.val + w.val < 32777
  · rw [dif_pos (by rw [hw]; exact h), dif_pos h]
    refine congrArg x (funext fun a => ?_)
    match a with
    | ⟨0, _⟩ => rfl
    | ⟨1, _⟩ => exact Fin.ext hm
    | ⟨2, _⟩ => exact Fin.ext (by show t.val + r.val / 80 - 9 = t.val + w.val - 9; rw [hw])
  · rw [dif_neg (by rw [hw]; exact h), dif_neg h]

/-- Row `w · 80 + f` at step `t` is step `t + w + 1015` of the padded copy's feature `f`. -/
theorem padded_shift (z : α) (x : SIn.Idx → α) (w : Fin 19) (f : Fin 80) (t : Fin 32768) (r : Fin 1520)
    (hr : r.val = w.val * 80 + f.val) (p : Fin 34816) (hp : p.val = t.val + w.val + 1015) :
    padded z x (ix3 (0 : Fin 1) f p) = frames z x (ix3 (0 : Fin 1) r t) := by
  rw [frames_apply z x w f t r hr]
  unfold padded
  show (if h : 1024 ≤ p.val ∧ p.val < 33792 then
      x (ix3 (0 : Fin 1) (⟨f.val, f.isLt⟩ : Fin 80) (⟨p.val - 1024, by omega⟩ : Fin 32768)) else z) = _
  by_cases h : 9 ≤ t.val + w.val ∧ t.val + w.val < 32777
  · rw [dif_pos (by omega), dif_pos h]
    refine congrArg x (funext fun a => ?_)
    match a with
    | ⟨0, _⟩ => rfl
    | ⟨1, _⟩ => rfl
    | ⟨2, _⟩ => exact Fin.ext (by show p.val - 1024 = t.val + w.val - 9; omega)
  · rw [dif_neg (by omega), dif_neg h]

end Cert.Context
-- ==== Proof.Window.lean ====
/-
  Two facts about how the kernel moves data, free of any program text.

  First, padding the signal with 1024 filler steps before and after is the padded copy of the specification: step p of
  the result is step p − 1024 of the signal when 1024 ≤ p < 33792, and the filler otherwise.

  Second, one stored piece. Three consecutive blocks of 1024 steps of an array Z of 34816 steps, the blocks i, i + 1 and
  i + 2, are laid side by side into a buffer of 3072 lanes, so lane m of the buffer is step i · 1024 + m of Z. The buffer is
  rotated along the lanes by 2057 − w, which brings lane m to lane (m + 2057 − w) mod 3072; read the other way, lane l of
  the rotated buffer is lane (l + 3072 − (2057 − w)) mod 3072 = l + 1015 + w of the buffer, a number between 1015 and 2056
  when l < 1024 and w < 19, so no lane comes around the end. The first 1024 lanes are kept. Lane l of the piece is therefore
  step i · 1024 + l + 1015 + w of Z, taken from the first, second or third block as l + 1015 + w falls below 1024, below
  2048, or not.
-/
import Idealize.ShloMosaic.Lib.KernelVsHost
import Idealize.ShloMosaic.Lib.Pipeline.Value
import Idealize.ShloMosaic.Lib.ValueIdx
import proofs.«145936_j53283364274940_2_alg».proof.Proof.Spec

namespace Cert.Context

open Idealize.ShloMosaic Idealize.ShloMosaic.ValueIdx

variable {α : Type}

/-- The padding read at coordinates: feature f at step p is the signal's step p − 1024 inside, the filler outside. -/
theorem pad_apply_coords (x : SIn.Idx → α) (v : (⟨0, ![]⟩ : Shape).Idx → α)
    (h : SIn.Pads ![0, 0, 1024] ![0, 0, 1024] ![0, 0, 0] SPad) (hu : 0 < (⟨0, ![]⟩ : Shape).numel)
    (a : Fin 1) (f : Fin 80) (p : Fin 34816) :
    pad SPad ![0, 0, 1024] ![0, 0, 1024] ![0, 0, 0] x v h hu (ix3 a f p)
      = padded (v (Shape.Idx.first hu)) x (ix3 a f p) := by
  have ha : a.val = 0 := by omega
  unfold padded
  show _ = (if h : 1024 ≤ p.val ∧ p.val < 33792 then
      x (ix3 (0 : Fin 1) (⟨f.val, f.isLt⟩ : Fin 80) (⟨p.val - 1024, by omega⟩ : Fin 32768)) else v (Shape.Idx.first hu))
  by_cases hp : 1024 ≤ p.val ∧ p.val < 33792
  · rw [dif_pos hp]
    exact pad_apply_of_inside _ _ _ x v h hu (ix3 a f p)
      (ix3 (0 : Fin 1) (⟨f.val, f.isLt⟩ : Fin 80) (⟨p.val - 1024, by omega⟩ : Fin 32768)) (by
        intro b
        match b with
        | ⟨0, _⟩ => show a.val = 0 + 0 * (0 + 1); omega
        | ⟨1, _⟩ => show f.val = 0 + f.val * (0 + 1); omega
        | ⟨2, _⟩ => show p.val = 1024 + (p.val - 1024) * (0 + 1); omega)
  · rw [dif_neg hp]
    refine pad_apply_of_not_inside _ _ _ x v h hu (ix3 a f p) (2 : Fin 3) ?_
    show ¬(1024 ≤ p.val ∧ (p.val - 1024) % (0 + 1) = 0 ∧ (p.val - 1024) / (0 + 1) < 32768)
    intro hin
    have h3 : (p.val - 1024) / 1 < 32768 := hin.2.2
    rw [Nat.div_one] at h3
    exact hp ⟨hin.1, by omega⟩

/-- Padding the signal with 1024 filler steps on each side is the specification's padded copy. -/
theorem pad_eq_padded (x : SIn.Idx → α) (v : (⟨0, ![]⟩ : Shape).Idx → α)
    (h : SIn.Pads ![0, 0, 1024] ![0, 0, 1024] ![0, 0, 0] SPad) (hu : 0 < (⟨0, ![]⟩ : Shape).numel) :
    pad SPad ![0, 0, 1024] ![0, 0, 1024] ![0, 0, 0] x v h hu = padded (v (Shape.Idx.first hu)) x := by
  funext j
  rw [eq_ix3 j]
  exact pad_apply_coords x v h hu (j 0) (j 1) (j 2)

/-- The three blocks laid side by side, read at lane m of feature f: the block m falls in, at lane m less the lanes of the
    blocks before it; which is step i · 1024 + m of Z. -/
theorem buffer_apply (Z : SPad.Idx → α) (i : Fin 32) (x0 x1 x2 : (⟨3, ![1, 80, 1024]⟩ : Shape).Idx → α)
    (h0 : ∀ (f : Fin 80) (l : Fin 1024),
      x0 (ix3 (0 : Fin 1) f l) = Z (ix3 (0 : Fin 1) f (⟨i.val * 1024 + l.val, by omega⟩ : Fin 34816)))
    (h1 : ∀ (f : Fin 80) (l : Fin 1024),
      x1 (ix3 (0 : Fin 1) f l) = Z (ix3 (0 : Fin 1) f (⟨(i.val + 1) * 1024 + l.val, by omega⟩ : Fin 34816)))
    (h2 : ∀ (f : Fin 80) (l : Fin 1024),
      x2 (ix3 (0 : Fin 1) f l) = Z (ix3 (0 : Fin 1) f (⟨(i.val + 2) * 1024 + l.val, by omega⟩ : Fin 34816)))
    (hsc : (⟨3, ![1, 80, 1024]⟩ : Shape).ShapeCasts ⟨3, ![1, 80, 1024]⟩)
    (hc : Shape.Concatenates [(⟨3, ![1, 80, 1024]⟩ : Shape), ⟨3, ![1, 80, 1024]⟩, ⟨3, ![1, 80, 1024]⟩] ⟨3, ![1, 80, 3072]⟩ 2)
    (f : Fin 80) (m : Fin 3072) :
    concatenate ⟨3, ![1, 80, 3072]⟩ 2
        [⟨⟨3, ![1, 80, 1024]⟩, shapeCast ⟨3, ![1, 80, 1024]⟩ x0 hsc⟩, ⟨⟨3, ![1, 80, 1024]⟩, shapeCast ⟨3, ![1, 80, 1024]⟩ x1 hsc⟩,
          ⟨⟨3, ![1, 80, 1024]⟩, shapeCast ⟨3, ![1, 80, 1024]⟩ x2 hsc⟩] hc (ix3 (0 : Fin 1) f m)
      = Z (ix3 (0 : Fin 1) f (⟨i.val * 1024 + m.val, by omega⟩ : Fin 34816)) := by
  have hm : m.val < 3072 := m.isLt
  have hi : i.val < 32 := i.isLt
  by_cases c0 : m.val < 1024
  · refine (concatenate_apply_piece (t := ⟨3, ![1, 80, 3072]⟩) (2 : Fin 3)
      [⟨⟨3, ![1, 80, 1024]⟩, shapeCast ⟨3, ![1, 80, 1024]⟩ x0 hsc⟩, ⟨⟨3, ![1, 80, 1024]⟩, shapeCast ⟨3, ![1, 80, 1024]⟩ x1 hsc⟩,
        ⟨⟨3, ![1, 80, 1024]⟩, shapeCast ⟨3, ![1, 80, 1024]⟩ x2 hsc⟩]
      hc (ix3 (0 : Fin 1) f m) 0 (by show 0 < 3; omega)
      ⟨3, ![1, 80, 1024]⟩ (shapeCast ⟨3, ![1, 80, 1024]⟩ x0 hsc) rfl rfl 0 rfl
      (ix3 (0 : Fin 1) f (⟨m.val, c0⟩ : Fin 1024)) (by
        intro b hb
        match b with
        | ⟨0, _⟩ => rfl
        | ⟨1, _⟩ => rfl
        | ⟨2, _⟩ => exact absurd rfl hb) (by show 0 + m.val = m.val; omega)).trans ?_
    rw [shapeCast_self]
    refine (h0 f ⟨m.val, c0⟩).trans ?_
    exact congrArg Z (congrArg (ix3 (0 : Fin 1) f) (Fin.ext rfl))
  · by_cases c1 : m.val < 2048
    · refine (concatenate_apply_piece (t := ⟨3, ![1, 80, 3072]⟩) (2 : Fin 3)
      [⟨⟨3, ![1, 80, 1024]⟩, shapeCast ⟨3, ![1, 80, 1024]⟩ x0 hsc⟩, ⟨⟨3, ![1, 80, 1024]⟩, shapeCast ⟨3, ![1, 80, 1024]⟩ x1 hsc⟩,
        ⟨⟨3, ![1, 80, 1024]⟩, shapeCast ⟨3, ![1, 80, 1024]⟩ x2 hsc⟩]
      hc (ix3 (0 : Fin 1) f m) 1 (by show 1 < 3; omega)
        ⟨3, ![1, 80, 1024]⟩ (shapeCast ⟨3, ![1, 80, 1024]⟩ x1 hsc) rfl rfl 1024 rfl
        (ix3 (0 : Fin 1) f (⟨m.val - 1024, by omega⟩ : Fin 1024)) (by
          intro b hb
          match b with
          | ⟨0, _⟩ => rfl
          | ⟨1, _⟩ => rfl
          | ⟨2, _⟩ => exact absurd rfl hb) (by show 1024 + (m.val - 1024) = m.val; omega)).trans ?_
      rw [shapeCast_self]
      refine (h1 f ⟨m.val - 1024, by omega⟩).trans ?_
      exact congrArg Z (congrArg (ix3 (0 : Fin 1) f) (Fin.ext (by
        show (i.val + 1) * 1024 + (m.val - 1024) = i.val * 1024 + m.val; omega)))
    · refine (concatenate_apply_piece (t := ⟨3, ![1, 80, 3072]⟩) (2 : Fin 3)
      [⟨⟨3, ![1, 80, 1024]⟩, shapeCast ⟨3, ![1, 80, 1024]⟩ x0 hsc⟩, ⟨⟨3, ![1, 80, 1024]⟩, shapeCast ⟨3, ![1, 80, 1024]⟩ x1 hsc⟩,
        ⟨⟨3, ![1, 80, 1024]⟩, shapeCast ⟨3, ![1, 80, 1024]⟩ x2 hsc⟩]
      hc (ix3 (0 : Fin 1) f m) 2 (by show 2 < 3; omega)
        ⟨3, ![1, 80, 1024]⟩ (shapeCast ⟨3, ![1, 80, 1024]⟩ x2 hsc) rfl rfl 2048 rfl
        (ix3 (0 : Fin 1) f (⟨m.val - 2048, by omega⟩ : Fin 1024)) (by
          intro b hb
          match b with
          | ⟨0, _⟩ => rfl
          | ⟨1, _⟩ => rfl
          | ⟨2, _⟩ => exact absurd rfl hb) (by show 2048 + (m.val - 2048) = m.val; omega)).trans ?_
      rw [shapeCast_self]
      refine (h2 f ⟨m.val - 2048, by omega⟩).trans ?_
      exact congrArg Z (congrArg (ix3 (0 : Fin 1) f) (Fin.ext (by
        show (i.val + 2) * 1024 + (m.val - 2048) = i.val * 1024 + m.val; omega)))

/-- One stored piece: lane l of feature f of the buffer rotated by 2057 − w and cut to its first 1024 lanes is step
    i · 1024 + l + 1015 + w of Z. -/
theorem piece_apply (Z : SPad.Idx → α) (i : Fin 32) (x0 x1 x2 : (⟨3, ![1, 80, 1024]⟩ : Shape).Idx → α)
    (h0 : ∀ (f : Fin 80) (l : Fin 1024),
      x0 (ix3 (0 : Fin 1) f l) = Z (ix3 (0 : Fin 1) f (⟨i.val * 1024 + l.val, by omega⟩ : Fin 34816)))
    (h1 : ∀ (f : Fin 80) (l : Fin 1024),
      x1 (ix3 (0 : Fin 1) f l) = Z (ix3 (0 : Fin 1) f (⟨(i.val + 1) * 1024 + l.val, by omega⟩ : Fin 34816)))
    (h2 : ∀ (f : Fin 80) (l : Fin 1024),
      x2 (ix3 (0 : Fin 1) f l) = Z (ix3 (0 : Fin 1) f (⟨(i.val + 2) * 1024 + l.val, by omega⟩ : Fin 34816)))
    (sb : BitVec 32) (w : Fin 19) (hsb : sb.toNat = 2057 - w.val)
    (hsc : (⟨3, ![1, 80, 1024]⟩ : Shape).ShapeCasts ⟨3, ![1, 80, 1024]⟩)
    (hc : Shape.Concatenates [(⟨3, ![1, 80, 1024]⟩ : Shape), ⟨3, ![1, 80, 1024]⟩, ⟨3, ![1, 80, 1024]⟩] ⟨3, ![1, 80, 3072]⟩ 2)
    (hr : (⟨3, ![1, 80, 3072]⟩ : Shape).Rotates 2 none)
    (hsl : (⟨3, ![1, 80, 3072]⟩ : Shape).Slices ![0, 0, 0] ⟨3, ![1, 80, 1024]⟩) (f : Fin 80) (l : Fin 1024) :
    extractStridedSlice ⟨3, ![1, 80, 1024]⟩ ![0, 0, 0]
        (dynamicRotate 2 sb none
          (concatenate ⟨3, ![1, 80, 3072]⟩ 2
            [⟨⟨3, ![1, 80, 1024]⟩, shapeCast ⟨3, ![1, 80, 1024]⟩ x0 hsc⟩, ⟨⟨3, ![1, 80, 1024]⟩, shapeCast ⟨3, ![1, 80, 1024]⟩ x1 hsc⟩,
              ⟨⟨3, ![1, 80, 1024]⟩, shapeCast ⟨3, ![1, 80, 1024]⟩ x2 hsc⟩] hc) hr) hsl (ix3 (0 : Fin 1) f l)
      = Z (ix3 (0 : Fin 1) f (⟨i.val * 1024 + l.val + 1015 + w.val, by omega⟩ : Fin 34816)) := by
  have hl : l.val < 1024 := l.isLt
  have hw : w.val < 19 := w.isLt
  refine (extractStridedSlice_apply _ _ hsl (ix3 (0 : Fin 1) f l) (ix3 (0 : Fin 1) f (⟨l.val, by omega⟩ : Fin 3072)) (by
    intro a
    match a with
    | ⟨0, _⟩ => rfl
    | ⟨1, _⟩ => show f.val = 0 + f.val; omega
    | ⟨2, _⟩ => show l.val = 0 + l.val; omega)).trans ?_
  refine (dynamicRotate_apply (2 : Fin 3) sb _ hr _
    (ix3 (0 : Fin 1) f (⟨l.val + 1015 + w.val, by omega⟩ : Fin 3072)) (by
      intro b
      match b with
      | ⟨0, _⟩ => rfl
      | ⟨1, _⟩ => rfl
      | ⟨2, _⟩ =>
        show l.val + 1015 + w.val = (l.val + 3072 - sb.toNat % 3072) % 3072
        rw [hsb]; omega)).trans ?_
  refine (buffer_apply Z i x0 x1 x2 h0 h1 h2 hsc hc f (⟨l.val + 1015 + w.val, by omega⟩ : Fin 3072)).trans ?_
  exact congrArg Z (congrArg (ix3 (0 : Fin 1) f) (Fin.ext (by
    show i.val * 1024 + (l.val + 1015 + w.val) = i.val * 1024 + l.val + 1015 + w.val; omega)))

end Cert.Context
-- ==== Proof.IdealValue.lean ====
/-
  The idealized kernel's result. After the thirty-two write-backs the output array holds, at row w · 80 + f and step
  t, feature f of the signal at step t + w − 9, and the host's filler where the signal has no such step.

  Point i's three input blocks are steps 1024 i … 1024 i + 3071 of the padded array, so lane l of the rotation by
  2057 − w is the padded array at step 1024 i + l + 1015 + w, and that is the signal at step (1024 i + l) + w − 9:
  each stored band is a band of the one function `frames`. The nineteen bands tile the output block, so the block
  point i writes back is block i of `frames`; the thirty-two blocks tile the steps, so the array ends at `frames`.
-/
import proofs.«145936_j53283364274940_2_alg».proof.Proof.IdealFrame
import proofs.«145936_j53283364274940_2_alg».proof.Proof.Window
import proofs.«145936_j53283364274940_2_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.Context
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The padded array -/

/-- The filler the host pads with: the integer zero converted to a float. -/
def filler : Elt F .f32 := (sitofp (F := F) .f32 (constantI S_ 32 0#32)) (Shape.Idx.first h_S_)

/-- The signal as launched on core `c`. -/
abbrev signal (c : Dev nD) : SIn.Idx → Elt F .f32 := m ((c : Thread nD τ).loc main_arg0)

/-- The region finds the padded array: the signal with 1024 filler steps on each side. -/
theorem V_padded (c : Dev nD) : (V m c main_v0 : SPad.Idx → Elt F .f32) = padded (filler (F := F)) (signal m c) := by
  have e : (V m c main_v0 : SPad.Idx → Elt F .f32)
      = pad S1x80x34816 ![0, 0, 1024] ![0, 0, 1024] ![0, 0, 0] (m ((c : Thread nD τ).loc main_arg0))
          (sitofp (F := F) .f32 (constantI S_ 32 0#32)) pads_S1x80x32768_S1x80x34816_000_000_102410240 h_S_ := by
    dsimp only [V]
    simp only [hostOps0, hostOps0_1, List.flatten_cons, List.flatten_nil, List.append_nil, List.cons_append, List.nil_append]
    after_results; rfl
  rw [e]
  exact pad_eq_padded _ _ _ _

/-! ## The index maps, decided over the grid -/

/-- At point `t` the three input windows sit at blocks `t`, `t + 1`, `t + 2` of the padded array's steps and the output
    window at block `t` of the result's steps; on the other two axes every window is at block 0. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val + 1
    ∧ win0_2.index t (0 : Fin 3) = 0 ∧ win0_2.index t (1 : Fin 3) = 0 ∧ win0_2.index t (2 : Fin 3) = t.val + 2
    ∧ win0_3.index t (0 : Fin 3) = 0 ∧ win0_3.index t (1 : Fin 3) = 0 ∧ win0_3.index t (2 : Fin 3) = t.val :=
  (by decide +kernel : ∀ t : Fin grid0.N, _)

theorem point_lt (t : Fin cfg0.N) : t.val < 32 := Nat.lt_of_lt_of_eq t.isLt N_0

theorem zeros3 : (![0, 0, 0] : Fin 3 → Nat) = fun _ => 0 := funext fun a => by fin_cases a <;> rfl

/-! ## The input blocks are steps of the padded array -/

/-- Window 0's block at point `t`: steps 1024 t … of the padded array. -/
theorem block0_apply (c : Dev nD) (t : Fin cfg0.N) (f : Fin 80) (l : Fin 1024) :
    View.ld (iblk m c 0 t) lanes (ix3 (0 : Fin 1) f l)
      = (V m c main_v0 : SPad.Idx → Elt F .f32) (ix3 (0 : Fin 1) f (⟨t.val * 1024 + l.val, by have := point_lt t; omega⟩ : Fin 34816)) := by
  rw [View.ld_unit_zero (S := S1x80x1024) zeros3]
  obtain ⟨e0, e1, e2, -⟩ := idx_facts t
  show (V m c main_v0 : SPad.Idx → Elt F .f32) (((cfg0.win 0).blk t).view.emb (ix3 (0 : Fin 1) f l)) = _
  refine congrArg (V m c main_v0 : SPad.Idx → Elt F .f32) (funext fun a => Fin.ext ?_)
  match a with
  | ⟨0, _⟩ => show win0_0.index t (0 : Fin 3) * 1 + 1 * 0 = 0; omega
  | ⟨1, _⟩ => show win0_0.index t (1 : Fin 3) * 80 + 1 * f.val = f.val; omega
  | ⟨2, _⟩ => show win0_0.index t (2 : Fin 3) * 1024 + 1 * l.val = t.val * 1024 + l.val; omega

/-- Window 1's block: steps 1024 (t + 1) …. -/
theorem block1_apply (c : Dev nD) (t : Fin cfg0.N) (f : Fin 80) (l : Fin 1024) :
    View.ld (iblk m c 1 t) lanes (ix3 (0 : Fin 1) f l)
      = (V m c main_v0 : SPad.Idx → Elt F .f32) (ix3 (0 : Fin 1) f (⟨(t.val + 1) * 1024 + l.val, by have := point_lt t; omega⟩ : Fin 34816)) := by
  rw [View.ld_unit_zero (S := S1x80x1024) zeros3]
  obtain ⟨-, -, -, e0, e1, e2, -⟩ := idx_facts t
  show (V m c main_v0 : SPad.Idx → Elt F .f32) (((cfg0.win 1).blk t).view.emb (ix3 (0 : Fin 1) f l)) = _
  refine congrArg (V m c main_v0 : SPad.Idx → Elt F .f32) (funext fun a => Fin.ext ?_)
  match a with
  | ⟨0, _⟩ => show win0_1.index t (0 : Fin 3) * 1 + 1 * 0 = 0; omega
  | ⟨1, _⟩ => show win0_1.index t (1 : Fin 3) * 80 + 1 * f.val = f.val; omega
  | ⟨2, _⟩ => show win0_1.index t (2 : Fin 3) * 1024 + 1 * l.val = (t.val + 1) * 1024 + l.val; omega

/-- Window 2's block: steps 1024 (t + 2) …. -/
theorem block2_apply (c : Dev nD) (t : Fin cfg0.N) (f : Fin 80) (l : Fin 1024) :
    View.ld (iblk m c 2 t) lanes (ix3 (0 : Fin 1) f l)
      = (V m c main_v0 : SPad.Idx → Elt F .f32) (ix3 (0 : Fin 1) f (⟨(t.val + 2) * 1024 + l.val, by have := point_lt t; omega⟩ : Fin 34816)) := by
  rw [View.ld_unit_zero (S := S1x80x1024) zeros3]
  obtain ⟨-, -, -, -, -, -, e0, e1, e2, -⟩ := idx_facts t
  show (V m c main_v0 : SPad.Idx → Elt F .f32) (((cfg0.win 2).blk t).view.emb (ix3 (0 : Fin 1) f l)) = _
  refine congrArg (V m c main_v0 : SPad.Idx → Elt F .f32) (funext fun a => Fin.ext ?_)
  match a with
  | ⟨0, _⟩ => show win0_2.index t (0 : Fin 3) * 1 + 1 * 0 = 0; omega
  | ⟨1, _⟩ => show win0_2.index t (1 : Fin 3) * 80 + 1 * f.val = f.val; omega
  | ⟨2, _⟩ => show win0_2.index t (2 : Fin 3) * 1024 + 1 * l.val = (t.val + 2) * 1024 + l.val; omega

/-! ## One band of the output block is a band of `frames` -/

/-- The function the output block holds after the body at point `t`: `frames` of the signal at the block's place in
    the result, rows as they are, steps 1024 t …. -/
def blockOfFrames (c : Dev nD) (t : Fin cfg0.N) : S1x1520x1024.Idx → Elt F .f32 :=
  fun y => frames (filler (F := F)) (signal m c) (((cfg0.win 3).blk t).view.emb y)

/-- Band `w`: the three blocks side by side, rotated by 2057 − w, the first 1024 lanes kept, read at feature `f` and
    lane `l`, is `frames` at row 80 w + f and step 1024 t + l. -/
theorem band_eq (c : Dev nD) (t : Fin cfg0.N) (w : Fin 19) (sb : BitVec 32) (hsb : sb.toNat = 2057 - w.val) (r : Nat) (hr : r = 80 * w.val)
    (inb : ∀ a, (![0, r, 0] : Fin 3 → Nat) a + S1x80x1024.size a ≤ S1x1520x1024.size a) (x : S1x80x1024.Idx) :
    extractStridedSlice S1x80x1024 ![0, 0, 0]
        (dynamicRotate 2 sb none (joined (iblk m c 0 t) (iblk m c 1 t) (iblk m c 2 t)) rotates_S1x80x3072_d2)
        slices_S1x80x3072_o0_0_0_S1x80x1024 x
      = blockOfFrames m c t ((Rect.unit (s := S1x1520x1024) ![0, r, 0] S1x80x1024.size inb).emb x) := by
  subst hr
  obtain ⟨a, f, l, rfl⟩ : ∃ (a : Fin 1) (f : Fin 80) (l : Fin 1024), x = ix3 a f l := ⟨x 0, x 1, x 2, eq_ix3 x⟩
  obtain rfl : a = 0 := Subsingleton.elim _ _
  have ht := point_lt t
  have hw : w.val < 19 := w.isLt
  have hf : f.val < 80 := f.isLt
  have hl : l.val < 1024 := l.isLt
  unfold joined k0_pay7
  refine (piece_apply (V m c main_v0 : SPad.Idx → Elt F .f32) (⟨t.val, ht⟩ : Fin 32)
    (View.ld (iblk m c 0 t) lanes) (View.ld (iblk m c 1 t) lanes) (View.ld (iblk m c 2 t) lanes)
    (block0_apply m c t) (block1_apply m c t) (block2_apply m c t) sb w hsb shapeCasts_S1x80x1024_S1x80x1024 concatenates_S1x80x1024_S1x80x1024_S1x80x1024_S1x80x3072_d2 rotates_S1x80x3072_d2 slices_S1x80x3072_o0_0_0_S1x80x1024 f l).trans ?_
  rw [V_padded]
  refine (padded_shift (filler (F := F)) (signal m c) w f (⟨t.val * 1024 + l.val, by omega⟩ : Fin 32768)
    (⟨w.val * 80 + f.val, by omega⟩ : Fin 1520) rfl _ (by show t.val * 1024 + l.val + 1015 + w.val = t.val * 1024 + l.val + w.val + 1015; omega)).trans ?_
  obtain ⟨-, -, -, -, -, -, -, -, -, e0, e1, e2⟩ := idx_facts t
  unfold blockOfFrames
  refine congrArg (frames (filler (F := F)) (signal m c)) (funext fun b => Fin.ext ?_)
  match b with
  | ⟨0, _⟩ => show 0 = win0_3.index t (0 : Fin 3) * 1 + 1 * (0 + 1 * 0); omega
  | ⟨1, _⟩ => show w.val * 80 + f.val = win0_3.index t (1 : Fin 3) * 1520 + 1 * (80 * w.val + 1 * f.val); omega
  | ⟨2, _⟩ => show t.val * 1024 + l.val = win0_3.index t (2 : Fin 3) * 1024 + 1 * (0 + 1 * l.val); omega

/-- Every one of the nineteen stores writes its band of `blockOfFrames`. -/
theorem pieces_agree (c : Dev nD) (t : Fin cfg0.N) :
    ∀ p ∈ ([
      ⟨rows18, k0_pay6 (joined (iblk m c 0 t) (iblk m c 1 t) (iblk m c 2 t))⟩,
      ⟨rows17, k0_pay5 (joined (iblk m c 0 t) (iblk m c 1 t) (iblk m c 2 t))⟩,
      ⟨rows16, k0_pay4 (joined (iblk m c 0 t) (iblk m c 1 t) (iblk m c 2 t))⟩,
      ⟨rows15, k0_pay3 (joined (iblk m c 0 t) (iblk m c 1 t) (iblk m c 2 t))⟩,
      ⟨rows14, k0_pay2 (joined (iblk m c 0 t) (iblk m c 1 t) (iblk m c 2 t))⟩,
      ⟨rows13, k0_pay1 (joined (iblk m c 0 t) (iblk m c 1 t) (iblk m c 2 t))⟩,
      ⟨rows12, k0_pay20 (joined (iblk m c 0 t) (iblk m c 1 t) (iblk m c 2 t))⟩,
      ⟨rows11, k0_pay19 (joined (iblk m c 0 t) (iblk m c 1 t) (iblk m c 2 t))⟩,
      ⟨rows10, k0_pay18 (joined (iblk m c 0 t) (iblk m c 1 t) (iblk m c 2 t))⟩,
      ⟨rows9, k0_pay17 (joined (iblk m c 0 t) (iblk m c 1 t) (iblk m c 2 t))⟩,
      ⟨rows8, k0_pay16 (joined (iblk m c 0 t) (iblk m c 1 t) (iblk m c 2 t))⟩,
      ⟨rows7, k0_pay15 (joined (iblk m c 0 t) (iblk m c 1 t) (iblk m c 2 t))⟩,
      ⟨rows6, k0_pay14 (joined (iblk m c 0 t) (iblk m c 1 t) (iblk m c 2 t))⟩,
      ⟨rows5, k0_pay13 (View.ld (iblk m c 0 t) lanes) (View.ld (iblk m c 1 t) lanes) (View.ld (iblk m c 2 t) lanes)⟩,
      ⟨rows4, k0_pay12 (View.ld (iblk m c 0 t) lanes) (View.ld (iblk m c 1 t) lanes) (View.ld (iblk m c 2 t) lanes)⟩,
      ⟨rows3, k0_pay11 (View.ld (iblk m c 0 t) lanes) (View.ld (iblk m c 1 t) lanes) (View.ld (iblk m c 2 t) lanes)⟩,
      ⟨rows2, k0_pay10 (View.ld (iblk m c 0 t) lanes) (View.ld (iblk m c 1 t) lanes) (View.ld (iblk m c 2 t) lanes)⟩,
      ⟨rows1, k0_pay9 (View.ld (iblk m c 0 t) lanes) (View.ld (iblk m c 1 t) lanes) (View.ld (iblk m c 2 t) lanes)⟩,
      ⟨rows0, k0_pay8 (View.ld (iblk m c 0 t) lanes) (View.ld (iblk m c 1 t) lanes) (View.ld (iblk m c 2 t) lanes)⟩] : List (View.Piece (Elt F) S1x1520x1024 .f32)),
      ∀ x : p.1.shape.Idx, p.2 x = blockOfFrames m c t (p.1.emb x) := by
  intro p hp
  simp only [List.mem_cons, List.not_mem_nil, or_false] at hp
  rcases hp with rfl | rfl | rfl | rfl | rfl | rfl | rfl | rfl | rfl | rfl | rfl | rfl | rfl | rfl | rfl | rfl | rfl | rfl | rfl
  · dsimp only
    exact fun x => band_eq m c t ⟨18, by decide⟩ 2039#32 rfl 1440 rfl inb_S1x1520x1024_S1x80x1024_0_1440_0 x
  · dsimp only
    exact fun x => band_eq m c t ⟨17, by decide⟩ 2040#32 rfl 1360 rfl inb_S1x1520x1024_S1x80x1024_0_1360_0 x
  · dsimp only
    exact fun x => band_eq m c t ⟨16, by decide⟩ 2041#32 rfl 1280 rfl inb_S1x1520x1024_S1x80x1024_0_1280_0 x
  · dsimp only
    exact fun x => band_eq m c t ⟨15, by decide⟩ 2042#32 rfl 1200 rfl inb_S1x1520x1024_S1x80x1024_0_1200_0 x
  · dsimp only
    exact fun x => band_eq m c t ⟨14, by decide⟩ 2043#32 rfl 1120 rfl inb_S1x1520x1024_S1x80x1024_0_1120_0 x
  · dsimp only
    exact fun x => band_eq m c t ⟨13, by decide⟩ 2044#32 rfl 1040 rfl inb_S1x1520x1024_S1x80x1024_0_1040_0 x
  · dsimp only
    exact fun x => band_eq m c t ⟨12, by decide⟩ 2045#32 rfl 960 rfl inb_S1x1520x1024_S1x80x1024_0_960_0 x
  · dsimp only
    exact fun x => band_eq m c t ⟨11, by decide⟩ 2046#32 rfl 880 rfl inb_S1x1520x1024_S1x80x1024_0_880_0 x
  · dsimp only
    exact fun x => band_eq m c t ⟨10, by decide⟩ 2047#32 rfl 800 rfl inb_S1x1520x1024_S1x80x1024_0_800_0 x
  · dsimp only
    exact fun x => band_eq m c t ⟨9, by decide⟩ 2048#32 rfl 720 rfl inb_S1x1520x1024_S1x80x1024_0_720_0 x
  · dsimp only
    exact fun x => band_eq m c t ⟨8, by decide⟩ 2049#32 rfl 640 rfl inb_S1x1520x1024_S1x80x1024_0_640_0 x
  · dsimp only
    exact fun x => band_eq m c t ⟨7, by decide⟩ 2050#32 rfl 560 rfl inb_S1x1520x1024_S1x80x1024_0_560_0 x
  · dsimp only
    exact fun x => band_eq m c t ⟨6, by decide⟩ 2051#32 rfl 480 rfl inb_S1x1520x1024_S1x80x1024_0_480_0 x
  · dsimp only
    exact fun x => band_eq m c t ⟨5, by decide⟩ 2052#32 rfl 400 rfl inb_S1x1520x1024_S1x80x1024_0_400_0 x
  · dsimp only
    exact fun x => band_eq m c t ⟨4, by decide⟩ 2053#32 rfl 320 rfl inb_S1x1520x1024_S1x80x1024_0_320_0 x
  · dsimp only
    exact fun x => band_eq m c t ⟨3, by decide⟩ 2054#32 rfl 240 rfl inb_S1x1520x1024_S1x80x1024_0_240_0 x
  · dsimp only
    exact fun x => band_eq m c t ⟨2, by decide⟩ 2055#32 rfl 160 rfl inb_S1x1520x1024_S1x80x1024_0_160_0 x
  · dsimp only
    exact fun x => band_eq m c t ⟨1, by decide⟩ 2056#32 rfl 80 rfl inb_S1x1520x1024_S1x80x1024_0_80_0 x
  · dsimp only
    exact fun x => band_eq m c t ⟨0, by decide⟩ 2057#32 rfl 0 rfl inb_S1x1520x1024_S1x80x1024_0_0_0 x

/-! ## The block a point writes back, and the whole array -/

/-- What point `t` writes back is block `t` of `frames` of the signal. -/
theorem flushed_eq (c : Dev nD) (t : Fin cfg0.N) :
    (dats m 0 c).flushed 3 t = ((cfg0.win 3).blk t).view.read (Elt F) (frames (filler (F := F)) (signal m c)) := by
  show (cfg0.win 3).cut (grid0.coords t) ((dats m 0 c).after 3 t) = _
  rw [after3]
  funext y
  show stacked (iblk m c 0 t) (iblk m c 1 t) (iblk m c 2 t) y = blockOfFrames m c t y
  unfold stacked
  exact View.canon_apply_of_pieces (blockOfFrames m c t) _ (pieces_agree m c t) y (bands_cover _ _ _ _ _ _ _ _ _ _ _ _ _ _ _ _ _ _ _ y)

/-- An index of the result is in point `t`'s block iff each coordinate is in the block's range on its axis. -/
theorem mem_block (t : Fin cfg0.N) (i : S1x1520x32768.Idx) :
    i ∈ ((cfg0.win 3).blk t).view.set ↔ ∀ a : Fin 3, win0_3.index t a * S1x1520x1024.size a ≤ (i a).val ∧ (i a).val < win0_3.index t a * S1x1520x1024.size a + S1x1520x1024.size a := by
  show i ∈ ((View.whole main_v1).slice (win0_3.rect t)).set ↔ _
  rw [View.set_slice_whole, Rect.mem_set_unit]
  exact Iff.rfl

/-- Every index of the result is in the block of the point its step names: point `step / 1024`. -/
theorem steps_covered (i : S1x1520x32768.Idx) :
    ∃ t : Fin cfg0.N, (cfg0.win 3).flush t = true ∧ i ∈ ((cfg0.win 3).blk t).view.set := by
  have h0 : (i 0).val < 1 := (i 0).isLt
  have h1 : (i 1).val < 1520 := (i 1).isLt
  have h2 : (i 2).val < 32768 := (i 2).isLt
  have hN : (i 2).val / 1024 < cfg0.N := by rw [show cfg0.N = 32 from N_0]; omega
  refine ⟨⟨(i 2).val / 1024, hN⟩, flush0_3 _, ?_⟩
  rw [mem_block]
  obtain ⟨-, -, -, -, -, -, -, -, -, e0, e1, e2⟩ := idx_facts ⟨(i 2).val / 1024, hN⟩
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 1520 ≤ (i 1).val ∧ (i 1).val < win0_3.index _ (1 : Fin 3) * 1520 + 1520; rw [e1]; omega
  | ⟨2, _⟩ => show win0_3.index _ (2 : Fin 3) * 1024 ≤ (i 2).val ∧ (i 2).val < win0_3.index _ (2 : Fin 3) * 1024 + 1024; rw [e2]; show (i 2).val / 1024 * 1024 ≤ (i 2).val ∧ (i 2).val < (i 2).val / 1024 * 1024 + 1024; omega

/-- The result array after the run is `frames` of the signal. -/
theorem final (c : Dev nD) : (dats m 0 c).arrAt 3 cfg0.N = frames (filler (F := F)) (signal m c) :=
  (dats m 0 c).arrAt_eq_of_cover 3 (frames (filler (F := F)) (signal m c)) (fun t _ => flushed_eq m c t) steps_covered

/-! ## The run, read -/

/-- Every weakly fair execution terminates with the result array at `frames` of the launched signal and the signal
    unchanged. -/
theorem run : θ_run defs (onTc (τ := τ) (main (F := F))) ⟨m, fun _ => 0, ρ⟩ fun r => ∀ c : Dev nD,
      r.2.mem ((c.tc : Thread nD τ).loc main_v1) = frames (filler (F := F)) (signal m c)
      ∧ r.2.mem ((c.tc : Thread nD τ).loc main_arg0) = m ((c.tc : Thread nD τ).loc main_arg0) :=
  (θ_run defs _ _).mono (fun _ h c => ⟨((h c).1 3).trans (final m c),
      ((h c).2 main_arg0 (Pipeline.mem_restRefs_of main_arg0 rfl (by decide))).trans (V_main_arg0 m c)⟩)
    (run_main m ρ)

end Cert.KernelIdeal.Hand

end
-- ==== Proof.RefSeq.lean ====
/-
  A straight line of host operations in which every operation writes one buffer, and no buffer is written twice or
  written after it is read: a single-assignment line. For such a line the contents after the WHOLE line satisfy one
  equation per operation, stated over the final contents alone — the buffer the operation writes holds its function
  of the final contents of the buffers it reads. The reason is the same for every operation: split the line at it;
  the operations after it write neither its result nor its operands, so both are final already when it has run,
  and the operations before it are never looked into.
-/
import Idealize.ShloMosaic.Lib.StableHlo.Run

noncomputable section

namespace Cert.Context.Ref

open Idealize.ShloMosaic Idealize.ShloMosaic.TcCoe Idealize.ShloMosaic.StableHlo

variable {τ : Topo} {sig : RefSig} {Val : EltTy → Type}

/-- Operation by operation, the one buffer each writes. -/
def WritesOne (ops : List (HloOp τ sig Val)) (wr : List (Ref sig .tc)) : Prop :=
  List.Forall₂ (fun op r => op.writes = {Proc.devRef (τ := τ) .tc r}) ops wr

/-- A buffer the line does not name among the written ones keeps its contents. -/
theorem after_keep {ops : List (HloOp τ sig Val)} {wr : List (Ref sig .tc)} (h : WritesOne ops wr) :
    ∀ (V : Valuation τ sig Val) {r : Ref sig .tc}, r ∉ wr → after ops V (Proc.devRef .tc r) = V (Proc.devRef .tc r) := by
  induction h with
  | nil => intro V r _; rfl
  | @cons op r' ops' wr' hop _ ih =>
    intro V r hr
    rw [after_cons, ih _ (fun hm => hr (List.mem_cons_of_mem _ hm))]
    refine op.result_of_not_mem V ?_
    rw [hop, Finset.mem_singleton]
    exact devRef_ne_of_ne fun e => hr (e ▸ List.mem_cons_self)

/-- The line run in two stretches. -/
theorem after_take_drop : ∀ (ops : List (HloOp τ sig Val)) (k : Nat) (V : Valuation τ sig Val),
    after ops V = after (ops.drop k) (after (ops.take k) V)
  | _, 0, _ => rfl
  | [], _ + 1, _ => rfl
  | op :: ops, k + 1, V => by
    rw [List.drop_succ_cons, List.take_succ_cons, after_cons, after_cons]
    exact after_take_drop ops k _

/-- A buffer none of the operations from the `k`-th on writes is final before the `k`-th runs. -/
theorem after_before {ops : List (HloOp τ sig Val)} {wr : List (Ref sig .tc)} (h : WritesOne ops wr)
    (V : Valuation τ sig Val) (k : Nat) {r : Ref sig .tc} (hr : r ∉ wr.drop k) :
    after ops V (Proc.devRef .tc r) = after (ops.take k) V (Proc.devRef .tc r) := by
  rw [after_take_drop ops k V]
  exact after_keep (List.forall₂_drop k h) _ hr

/-- A buffer none of the operations after the `k`-th writes is final once the `k`-th has run. -/
theorem after_at {ops : List (HloOp τ sig Val)} {wr : List (Ref sig .tc)} (h : WritesOne ops wr)
    (V : Valuation τ sig Val) (k : Nat) (hk : k < ops.length) {r : Ref sig .tc} (hr : r ∉ wr.drop (k + 1)) :
    after ops V (Proc.devRef .tc r) = (ops[k]).result (after (ops.take k) V) (Proc.devRef .tc r) := by
  rw [after_take_drop ops k V, List.drop_eq_getElem_cons hk, after_cons]
  exact after_keep (List.forall₂_drop (k + 1) h) _ hr

section Stages

variable {ops : List (HloOp τ sig Val)} {wr : List (Ref sig .tc)} (h : WritesOne ops wr) (V : Valuation τ sig Val)
  (k : Nat) (hk : k < ops.length)
include h

/-- The `k`-th operation sets `y` to a value: that is `y`'s final contents. -/
theorem stage_nullary (y : Ref sig .tc) (v : y.ty.Contents Val) (hy)
    (hop : ops[k] = nullary y v hy) (hy' : y ∉ wr.drop (k + 1)) :
    after ops V (Proc.devRef .tc y) = v := by
  rw [after_at h V k hk hy', hop, nullary_result]

/-- The `k`-th operation sets `y` to `f` of `x`: finally `y` holds `f` of what `x` finally holds. -/
theorem stage_unary (x y : Ref sig .tc) (f : x.ty.Contents Val → y.ty.Contents Val) (hx hy)
    (hop : ops[k] = unary x y f hx hy) (hy' : y ∉ wr.drop (k + 1)) (hx' : x ∉ wr.drop k) :
    after ops V (Proc.devRef .tc y) = f (after ops V (Proc.devRef .tc x)) := by
  rw [after_at h V k hk hy', hop, unary_result, after_before h V k hx']

/-- The same for a reshape. -/
theorem stage_reshape (x y : Ref sig .tc) (he hn hx hy)
    (hop : ops[k] = reshape x y he hn hx hy) (hy' : y ∉ wr.drop (k + 1)) (hx' : x ∉ wr.drop k) :
    after ops V (Proc.devRef .tc y) = fun i => he ▸ shapeCast y.ty.shape (after ops V (Proc.devRef .tc x)) hn i := by
  rw [after_at h V k hk hy', hop, reshape_result, after_before h V k hx']

/-- The same for an operation of two operands. -/
theorem stage_binary (a b y : Ref sig .tc) (f : a.ty.Contents Val → b.ty.Contents Val → y.ty.Contents Val) (ha hb hy)
    (hop : ops[k] = binary a b y f ha hb hy) (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k hk hy', hop, binary_result, after_before h V k ha', after_before h V k hb']

/-- The same for an operation of a family of operands. -/
theorem stage_nary {n : Nat} (xs : Fin n → Ref sig .tc) (y : Ref sig .tc)
    (f : ((i : Fin n) → (xs i).ty.Contents Val) → y.ty.Contents Val) (hxs hy)
    (hop : ops[k] = nary xs y f hxs hy) (hy' : y ∉ wr.drop (k + 1)) (hx' : ∀ i, xs i ∉ wr.drop k) :
    after ops V (Proc.devRef .tc y) = f (fun i => after ops V (Proc.devRef .tc (xs i))) := by
  rw [after_at h V k hk hy', hop, nary_result]
  exact congrArg f (funext fun i => (after_before h V k (hx' i)).symm)

end Stages

end Cert.Context.Ref

end
-- ==== Proof.RefOps.lean ====
/-
  The reference program's host operations as a list, in the program's order: a reshape and a transpose of the signal
  to steps by features, nine rows of filler before and after it, the nineteen windows of 32768 consecutive rows, each
  given a unit middle axis, the nineteen stacked along that axis, and the stack reshaped and transposed to rows by
  steps. The program is the list run in order; it touches only tensor values of the device; and operation by
  operation it writes the next tensor value, each exactly once.
-/
import proofs.«145936_j53283364274940_2_alg».proof.ReferenceIdeal
import proofs.«145936_j53283364274940_2_alg».proof.Proof.RefSeq

noncomputable section

namespace Cert.Context.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's 49 operations, in order. -/
abbrev ops : List (HloOp τ sig (Elt F)) :=
  [ StableHlo.reshape main_arg0 main_v0 rfl shapeCasts_S1x80x32768_S80x32768,
    StableHlo.unary main_v0 main_v1 ((transpose S32768x80 [1, 0] · transposes_S80x32768_S32768x80_1_0) : (⟨S80x32768, .f32⟩ : BufTy).Contents (Elt F) → (⟨S32768x80, .f32⟩ : BufTy).Contents (Elt F)),
    StableHlo.nullary main_cst (constant S_ .f32 0x00000000#32),
    StableHlo.unary main_cst main_v2 (broadcastInDim S9x80 ![] bcast_S_S9x80 : (⟨S_, .f32⟩ : BufTy).Contents (Elt F) → (⟨S9x80, .f32⟩ : BufTy).Contents (Elt F)),
    StableHlo.nary ![main_v2, main_v1, main_v2] main_v3 (fun u => concatenate S32786x80 0 [⟨S9x80, u 0⟩, ⟨S32768x80, u 1⟩, ⟨S9x80, u 2⟩] concatenates_S9x80_S32768x80_S9x80_S32786x80_d0),
    StableHlo.unary main_v3 main_v4 ((extractStridedSlice S32768x80 ![0, 0] · slices_S32786x80_S32768x80_0_0) : (⟨S32786x80, .f32⟩ : BufTy).Contents (Elt F) → (⟨S32768x80, .f32⟩ : BufTy).Contents (Elt F)),
    StableHlo.unary main_v3 main_v5 ((extractStridedSlice S32768x80 ![1, 0] · slices_S32786x80_S32768x80_1_0) : (⟨S32786x80, .f32⟩ : BufTy).Contents (Elt F) → (⟨S32768x80, .f32⟩ : BufTy).Contents (Elt F)),
    StableHlo.unary main_v3 main_v6 ((extractStridedSlice S32768x80 ![2, 0] · slices_S32786x80_S32768x80_2_0) : (⟨S32786x80, .f32⟩ : BufTy).Contents (Elt F) → (⟨S32768x80, .f32⟩ : BufTy).Contents (Elt F)),
    StableHlo.unary main_v3 main_v7 ((extractStridedSlice S32768x80 ![3, 0] · slices_S32786x80_S32768x80_3_0) : (⟨S32786x80, .f32⟩ : BufTy).Contents (Elt F) → (⟨S32768x80, .f32⟩ : BufTy).Contents (Elt F)),
    StableHlo.unary main_v3 main_v8 ((extractStridedSlice S32768x80 ![4, 0] · slices_S32786x80_S32768x80_4_0) : (⟨S32786x80, .f32⟩ : BufTy).Contents (Elt F) → (⟨S32768x80, .f32⟩ : BufTy).Contents (Elt F)),
    StableHlo.unary main_v3 main_v9 ((extractStridedSlice S32768x80 ![5, 0] · slices_S32786x80_S32768x80_5_0) : (⟨S32786x80, .f32⟩ : BufTy).Contents (Elt F) → (⟨S32768x80, .f32⟩ : BufTy).Contents (Elt F)),
    StableHlo.unary main_v3 main_v10 ((extractStridedSlice S32768x80 ![6, 0] · slices_S32786x80_S32768x80_6_0) : (⟨S32786x80, .f32⟩ : BufTy).Contents (Elt F) → (⟨S32768x80, .f32⟩ : BufTy).Contents (Elt F)),
    StableHlo.unary main_v3 main_v11 ((extractStridedSlice S32768x80 ![7, 0] · slices_S32786x80_S32768x80_7_0) : (⟨S32786x80, .f32⟩ : BufTy).Contents (Elt F) → (⟨S32768x80, .f32⟩ : BufTy).Contents (Elt F)),
    StableHlo.unary main_v3 main_v12 ((extractStridedSlice S32768x80 ![8, 0] · slices_S32786x80_S32768x80_8_0) : (⟨S32786x80, .f32⟩ : BufTy).Contents (Elt F) → (⟨S32768x80, .f32⟩ : BufTy).Contents (Elt F)),
    StableHlo.unary main_v3 main_v13 ((extractStridedSlice S32768x80 ![9, 0] · slices_S32786x80_S32768x80_9_0) : (⟨S32786x80, .f32⟩ : BufTy).Contents (Elt F) → (⟨S32768x80, .f32⟩ : BufTy).Contents (Elt F)),
    StableHlo.unary main_v3 main_v14 ((extractStridedSlice S32768x80 ![10, 0] · slices_S32786x80_S32768x80_10_0) : (⟨S32786x80, .f32⟩ : BufTy).Contents (Elt F) → (⟨S32768x80, .f32⟩ : BufTy).Contents (Elt F)),
    StableHlo.unary main_v3 main_v15 ((extractStridedSlice S32768x80 ![11, 0] · slices_S32786x80_S32768x80_11_0) : (⟨S32786x80, .f32⟩ : BufTy).Contents (Elt F) → (⟨S32768x80, .f32⟩ : BufTy).Contents (Elt F)),
    StableHlo.unary main_v3 main_v16 ((extractStridedSlice S32768x80 ![12, 0] · slices_S32786x80_S32768x80_12_0) : (⟨S32786x80, .f32⟩ : BufTy).Contents (Elt F) → (⟨S32768x80, .f32⟩ : BufTy).Contents (Elt F)),
    StableHlo.unary main_v3 main_v17 ((extractStridedSlice S32768x80 ![13, 0] · slices_S32786x80_S32768x80_13_0) : (⟨S32786x80, .f32⟩ : BufTy).Contents (Elt F) → (⟨S32768x80, .f32⟩ : BufTy).Contents (Elt F)),
    StableHlo.unary main_v3 main_v18 ((extractStridedSlice S32768x80 ![14, 0] · slices_S32786x80_S32768x80_14_0) : (⟨S32786x80, .f32⟩ : BufTy).Contents (Elt F) → (⟨S32768x80, .f32⟩ : BufTy).Contents (Elt F)),
    StableHlo.unary main_v3 main_v19 ((extractStridedSlice S32768x80 ![15, 0] · slices_S32786x80_S32768x80_15_0) : (⟨S32786x80, .f32⟩ : BufTy).Contents (Elt F) → (⟨S32768x80, .f32⟩ : BufTy).Contents (Elt F)),
    StableHlo.unary main_v3 main_v20 ((extractStridedSlice S32768x80 ![16, 0] · slices_S32786x80_S32768x80_16_0) : (⟨S32786x80, .f32⟩ : BufTy).Contents (Elt F) → (⟨S32768x80, .f32⟩ : BufTy).Contents (Elt F)),
    StableHlo.unary main_v3 main_v21 ((extractStridedSlice S32768x80 ![17, 0] · slices_S32786x80_S32768x80_17_0) : (⟨S32786x80, .f32⟩ : BufTy).Contents (Elt F) → (⟨S32768x80, .f32⟩ : BufTy).Contents (Elt F)),
    StableHlo.unary main_v3 main_v22 ((extractStridedSlice S32768x80 ![18, 0] · slices_S32786x80_S32768x80_18_0) : (⟨S32786x80, .f32⟩ : BufTy).Contents (Elt F) → (⟨S32768x80, .f32⟩ : BufTy).Contents (Elt F)),
    StableHlo.unary main_v4 main_v23 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v5 main_v24 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v6 main_v25 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v7 main_v26 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v8 main_v27 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v9 main_v28 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v10 main_v29 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v11 main_v30 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v12 main_v31 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v13 main_v32 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v14 main_v33 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v15 main_v34 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v16 main_v35 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v17 main_v36 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v18 main_v37 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v19 main_v38 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v20 main_v39 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v21 main_v40 (broadcastInDim S32768x1x80 ![0, 2] bcast_S32768x80_S32768x1x80_0_2 : (⟨S32768x80, .f32⟩ : BufTy).Contents (Elt F) → (⟨S32768x1x80, .f32⟩ : BufTy).Contents (Elt F)),
    StableHlo.unary main_v22 main_v41 (broadcastInDim S32768x1x80 ![0, 2] bcast_S32768x80_S32768x1x80_0_2 : (⟨S32768x80, .f32⟩ : BufTy).Contents (Elt F) → (⟨S32768x1x80, .f32⟩ : BufTy).Contents (Elt F)),
    StableHlo.nary ![main_v23, main_v24, main_v25, main_v26, main_v27, main_v28, main_v29, main_v30, main_v31, main_v32, main_v33, main_v34, main_v35, main_v36, main_v37, main_v38] main_v42 (fun u => concatenate S32768x16x80 1 [⟨S32768x1x80, u 0⟩, ⟨S32768x1x80, u 1⟩, ⟨S32768x1x80, u 2⟩, ⟨S32768x1x80, u 3⟩, ⟨S32768x1x80, u 4⟩, ⟨S32768x1x80, u 5⟩, ⟨S32768x1x80, u 6⟩, ⟨S32768x1x80, u 7⟩, ⟨S32768x1x80, u 8⟩, ⟨S32768x1x80, u 9⟩, ⟨S32768x1x80, u 10⟩, ⟨S32768x1x80, u 11⟩, ⟨S32768x1x80, u 12⟩, ⟨S32768x1x80, u 13⟩, ⟨S32768x1x80, u 14⟩, ⟨S32768x1x80, u 15⟩] concatenates_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x16x80_d1),
    StableHlo.nary ![main_v39, main_v40, main_v41] main_v43 (fun u => concatenate S32768x3x80 1 [⟨S32768x1x80, u 0⟩, ⟨S32768x1x80, u 1⟩, ⟨S32768x1x80, u 2⟩] concatenates_S32768x1x80_S32768x1x80_S32768x1x80_S32768x3x80_d1),
    StableHlo.binary main_v42 main_v43 main_v44 ((fun a b => concatenate S32768x19x80 1 [⟨S32768x16x80, a⟩, ⟨S32768x3x80, b⟩] concatenates_S32768x16x80_S32768x3x80_S32768x19x80_d1) : (⟨S32768x16x80, .f32⟩ : BufTy).Contents (Elt F) → (⟨S32768x3x80, .f32⟩ : BufTy).Contents (Elt F) → (⟨S32768x19x80, .f32⟩ : BufTy).Contents (Elt F)),
    StableHlo.reshape main_v44 main_v45 rfl shapeCasts_S32768x19x80_S32768x1520,
    StableHlo.unary main_v45 main_v46 ((transpose S1520x32768 [1, 0] · transposes_S32768x1520_S1520x32768_1_0) : (⟨S32768x1520, .f32⟩ : BufTy).Contents (Elt F) → (⟨S1520x32768, .f32⟩ : BufTy).Contents (Elt F)),
    StableHlo.unary main_v46 main_v47 (broadcastInDim S1x1520x32768 ![1, 2] bcast_S1520x32768_S1x1520x32768_1_2 : (⟨S1520x32768, .f32⟩ : BufTy).Contents (Elt F) → (⟨S1x1520x32768, .f32⟩ : BufTy).Contents (Elt F)) ]

/-- The tensor value each operation writes, in the same order. -/
abbrev wr : List (Ref sig .tc) :=
  [ main_v0, main_v1, main_cst, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47 ]

set_option maxRecDepth 8192 in
/-- The program is its operations run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches tensor values of the device only. -/
theorem ops_sub : (ops : List (HloOp τ sig (Elt F))).Forall fun op => op.bufs ⊆ tcRefs τ sig :=
  ⟨reshape_bufs_sub .., unary_bufs_sub .., nullary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., reshape_bufs_sub .., unary_bufs_sub .., unary_bufs_sub ..⟩

/-- Operation by operation, the one tensor value written. -/
theorem ops_writes : WritesOne (ops : List (HloOp τ sig (Elt F))) wr := by
  unfold WritesOne
  repeat (first | exact List.Forall₂.nil | refine List.Forall₂.cons rfl ?_)

end Cert.Context.Ref

end
-- ==== Proof.RefStages.lean ====
/-
  One equation per operation of the reference program, over the contents after the WHOLE program: the tensor value an
  operation writes holds the operation's function of what its operands hold at the end. Each is the single-assignment
  argument at one position of the list: the operations after that position write neither the result nor an operand.
  The argument is never written by any operation and keeps its launch contents.
-/
import proofs.«145936_j53283364274940_2_alg».proof.Proof.RefOps

noncomputable section

namespace Cert.Context.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

theorem ops_length : (ops : List (HloOp τ sig (Elt F))).length = 49 := rfl

/-- The contents of the device's buffers when the whole program has run from contents `V`. -/
def fin (V : Valuation τ sig (Elt F)) : Valuation τ sig (Elt F) := after ops V

variable (V : Valuation τ sig (Elt F))

/-- `fin` at a tensor value is the fold of the operations at it. -/
theorem fin_apply (r : Ref sig .tc) : after ops V (Proc.devRef .tc r) = fin V (Proc.devRef .tc r) := rfl

set_option quotPrecheck false in
/-- What a tensor value holds when the whole program has run from contents `V`. -/
local notation "W[" r "]" => fin V (Proc.devRef .tc r)

/-- The signal is never written. -/
theorem st_arg0 : W[main_arg0] = V (Proc.devRef .tc main_arg0) := after_keep ops_writes V (by decide)

theorem st_v0 : W[main_v0] = shapeCast S80x32768 W[main_arg0] shapeCasts_S1x80x32768_S80x32768 := by
  have hop : (ops (F := F))[0]'(by rw [ops_length]; omega) = StableHlo.reshape main_arg0 main_v0 rfl shapeCasts_S1x80x32768_S80x32768 := rfl
  have h := stage_reshape ops_writes V 0 (by rw [ops_length]; omega) _ _ _ _ _ _ hop (by decide) (by decide)
  exact h

theorem st_v1 : W[main_v1] = transpose S32768x80 [1, 0] W[main_v0] transposes_S80x32768_S32768x80_1_0 := by
  have hop : (ops (F := F))[1]'(by rw [ops_length]; omega) = StableHlo.unary main_v0 main_v1 ((transpose S32768x80 [1, 0] · transposes_S80x32768_S32768x80_1_0) : (⟨S80x32768, .f32⟩ : BufTy).Contents (Elt F) → (⟨S32768x80, .f32⟩ : BufTy).Contents (Elt F)) := rfl
  have h := stage_unary ops_writes V 1 (by rw [ops_length]; omega) _ _ _ _ _ hop (by decide) (by decide)
  exact h

theorem st_cst : W[main_cst] = constant S_ .f32 0x00000000#32 := by
  have hop : (ops (F := F))[2]'(by rw [ops_length]; omega) = StableHlo.nullary main_cst (constant S_ .f32 0x00000000#32) := rfl
  have h := stage_nullary ops_writes V 2 (by rw [ops_length]; omega) _ _ _ hop (by decide)
  exact h

theorem st_v2 : W[main_v2] = broadcastInDim S9x80 ![] bcast_S_S9x80 W[main_cst] := by
  have hop : (ops (F := F))[3]'(by rw [ops_length]; omega) = StableHlo.unary main_cst main_v2 (broadcastInDim S9x80 ![] bcast_S_S9x80 : (⟨S_, .f32⟩ : BufTy).Contents (Elt F) → (⟨S9x80, .f32⟩ : BufTy).Contents (Elt F)) := rfl
  have h := stage_unary ops_writes V 3 (by rw [ops_length]; omega) _ _ _ _ _ hop (by decide) (by decide)
  exact h

theorem st_v3 : W[main_v3] = concatenate S32786x80 0 [⟨S9x80, W[main_v2]⟩, ⟨S32768x80, W[main_v1]⟩, ⟨S9x80, W[main_v2]⟩]
    concatenates_S9x80_S32768x80_S9x80_S32786x80_d0 := by
  have hop : (ops (F := F))[4]'(by rw [ops_length]; omega) = StableHlo.nary ![main_v2, main_v1, main_v2] main_v3 (fun u => concatenate S32786x80 0 [⟨S9x80, u 0⟩, ⟨S32768x80, u 1⟩, ⟨S9x80, u 2⟩] concatenates_S9x80_S32768x80_S9x80_S32786x80_d0) := rfl
  have h := stage_nary ops_writes V 4 (by rw [ops_length]; omega) _ _ _ _ _ hop (by decide) (by decide)
  exact h

theorem st_v4 : W[main_v4] = extractStridedSlice S32768x80 ![0, 0] W[main_v3] slices_S32786x80_S32768x80_0_0 := by
  have hop : (ops (F := F))[5]'(by rw [ops_length]; omega) = StableHlo.unary main_v3 main_v4 ((extractStridedSlice S32768x80 ![0, 0] · slices_S32786x80_S32768x80_0_0) : (⟨S32786x80, .f32⟩ : BufTy).Contents (Elt F) → (⟨S32768x80, .f32⟩ : BufTy).Contents (Elt F)) := rfl
  have h := stage_unary ops_writes V 5 (by rw [ops_length]; omega) _ _ _ _ _ hop (by decide) (by decide)
  exact h

theorem st_v5 : W[main_v5] = extractStridedSlice S32768x80 ![1, 0] W[main_v3] slices_S32786x80_S32768x80_1_0 := by
  have hop : (ops (F := F))[6]'(by rw [ops_length]; omega) = StableHlo.unary main_v3 main_v5 ((extractStridedSlice S32768x80 ![1, 0] · slices_S32786x80_S32768x80_1_0) : (⟨S32786x80, .f32⟩ : BufTy).Contents (Elt F) → (⟨S32768x80, .f32⟩ : BufTy).Contents (Elt F)) := rfl
  have h := stage_unary ops_writes V 6 (by rw [ops_length]; omega) _ _ _ _ _ hop (by decide) (by decide)
  exact h

theorem st_v6 : W[main_v6] = extractStridedSlice S32768x80 ![2, 0] W[main_v3] slices_S32786x80_S32768x80_2_0 := by
  have hop : (ops (F := F))[7]'(by rw [ops_length]; omega) = StableHlo.unary main_v3 main_v6 ((extractStridedSlice S32768x80 ![2, 0] · slices_S32786x80_S32768x80_2_0) : (⟨S32786x80, .f32⟩ : BufTy).Contents (Elt F) → (⟨S32768x80, .f32⟩ : BufTy).Contents (Elt F)) := rfl
  have h := stage_unary ops_writes V 7 (by rw [ops_length]; omega) _ _ _ _ _ hop (by decide) (by decide)
  exact h

theorem st_v7 : W[main_v7] = extractStridedSlice S32768x80 ![3, 0] W[main_v3] slices_S32786x80_S32768x80_3_0 := by
  have hop : (ops (F := F))[8]'(by rw [ops_length]; omega) = StableHlo.unary main_v3 main_v7 ((extractStridedSlice S32768x80 ![3, 0] · slices_S32786x80_S32768x80_3_0) : (⟨S32786x80, .f32⟩ : BufTy).Contents (Elt F) → (⟨S32768x80, .f32⟩ : BufTy).Contents (Elt F)) := rfl
  have h := stage_unary ops_writes V 8 (by rw [ops_length]; omega) _ _ _ _ _ hop (by decide) (by decide)
  exact h

theorem st_v8 : W[main_v8] = extractStridedSlice S32768x80 ![4, 0] W[main_v3] slices_S32786x80_S32768x80_4_0 := by
  have hop : (ops (F := F))[9]'(by rw [ops_length]; omega) = StableHlo.unary main_v3 main_v8 ((extractStridedSlice S32768x80 ![4, 0] · slices_S32786x80_S32768x80_4_0) : (⟨S32786x80, .f32⟩ : BufTy).Contents (Elt F) → (⟨S32768x80, .f32⟩ : BufTy).Contents (Elt F)) := rfl
  have h := stage_unary ops_writes V 9 (by rw [ops_length]; omega) _ _ _ _ _ hop (by decide) (by decide)
  exact h

theorem st_v9 : W[main_v9] = extractStridedSlice S32768x80 ![5, 0] W[main_v3] slices_S32786x80_S32768x80_5_0 := by
  have hop : (ops (F := F))[10]'(by rw [ops_length]; omega) = StableHlo.unary main_v3 main_v9 ((extractStridedSlice S32768x80 ![5, 0] · slices_S32786x80_S32768x80_5_0) : (⟨S32786x80, .f32⟩ : BufTy).Contents (Elt F) → (⟨S32768x80, .f32⟩ : BufTy).Contents (Elt F)) := rfl
  have h := stage_unary ops_writes V 10 (by rw [ops_length]; omega) _ _ _ _ _ hop (by decide) (by decide)
  exact h

theorem st_v10 : W[main_v10] = extractStridedSlice S32768x80 ![6, 0] W[main_v3] slices_S32786x80_S32768x80_6_0 := by
  have hop : (ops (F := F))[11]'(by rw [ops_length]; omega) = StableHlo.unary main_v3 main_v10 ((extractStridedSlice S32768x80 ![6, 0] · slices_S32786x80_S32768x80_6_0) : (⟨S32786x80, .f32⟩ : BufTy).Contents (Elt F) → (⟨S32768x80, .f32⟩ : BufTy).Contents (Elt F)) := rfl
  have h := stage_unary ops_writes V 11 (by rw [ops_length]; omega) _ _ _ _ _ hop (by decide) (by decide)
  exact h

theorem st_v11 : W[main_v11] = extractStridedSlice S32768x80 ![7, 0] W[main_v3] slices_S32786x80_S32768x80_7_0 := by
  have hop : (ops (F := F))[12]'(by rw [ops_length]; omega) = StableHlo.unary main_v3 main_v11 ((extractStridedSlice S32768x80 ![7, 0] · slices_S32786x80_S32768x80_7_0) : (⟨S32786x80, .f32⟩ : BufTy).Contents (Elt F) → (⟨S32768x80, .f32⟩ : BufTy).Contents (Elt F)) := rfl
  have h := stage_unary ops_writes V 12 (by rw [ops_length]; omega) _ _ _ _ _ hop (by decide) (by decide)
  exact h

theorem st_v12 : W[main_v12] = extractStridedSlice S32768x80 ![8, 0] W[main_v3] slices_S32786x80_S32768x80_8_0 := by
  have hop : (ops (F := F))[13]'(by rw [ops_length]; omega) = StableHlo.unary main_v3 main_v12 ((extractStridedSlice S32768x80 ![8, 0] · slices_S32786x80_S32768x80_8_0) : (⟨S32786x80, .f32⟩ : BufTy).Contents (Elt F) → (⟨S32768x80, .f32⟩ : BufTy).Contents (Elt F)) := rfl
  have h := stage_unary ops_writes V 13 (by rw [ops_length]; omega) _ _ _ _ _ hop (by decide) (by decide)
  exact h

theorem st_v13 : W[main_v13] = extractStridedSlice S32768x80 ![9, 0] W[main_v3] slices_S32786x80_S32768x80_9_0 := by
  have hop : (ops (F := F))[14]'(by rw [ops_length]; omega) = StableHlo.unary main_v3 main_v13 ((extractStridedSlice S32768x80 ![9, 0] · slices_S32786x80_S32768x80_9_0) : (⟨S32786x80, .f32⟩ : BufTy).Contents (Elt F) → (⟨S32768x80, .f32⟩ : BufTy).Contents (Elt F)) := rfl
  have h := stage_unary ops_writes V 14 (by rw [ops_length]; omega) _ _ _ _ _ hop (by decide) (by decide)
  exact h

theorem st_v14 : W[main_v14] = extractStridedSlice S32768x80 ![10, 0] W[main_v3] slices_S32786x80_S32768x80_10_0 := by
  have hop : (ops (F := F))[15]'(by rw [ops_length]; omega) = StableHlo.unary main_v3 main_v14 ((extractStridedSlice S32768x80 ![10, 0] · slices_S32786x80_S32768x80_10_0) : (⟨S32786x80, .f32⟩ : BufTy).Contents (Elt F) → (⟨S32768x80, .f32⟩ : BufTy).Contents (Elt F)) := rfl
  have h := stage_unary ops_writes V 15 (by rw [ops_length]; omega) _ _ _ _ _ hop (by decide) (by decide)
  exact h

theorem st_v15 : W[main_v15] = extractStridedSlice S32768x80 ![11, 0] W[main_v3] slices_S32786x80_S32768x80_11_0 := by
  have hop : (ops (F := F))[16]'(by rw [ops_length]; omega) = StableHlo.unary main_v3 main_v15 ((extractStridedSlice S32768x80 ![11, 0] · slices_S32786x80_S32768x80_11_0) : (⟨S32786x80, .f32⟩ : BufTy).Contents (Elt F) → (⟨S32768x80, .f32⟩ : BufTy).Contents (Elt F)) := rfl
  have h := stage_unary ops_writes V 16 (by rw [ops_length]; omega) _ _ _ _ _ hop (by decide) (by decide)
  exact h

theorem st_v16 : W[main_v16] = extractStridedSlice S32768x80 ![12, 0] W[main_v3] slices_S32786x80_S32768x80_12_0 := by
  have hop : (ops (F := F))[17]'(by rw [ops_length]; omega) = StableHlo.unary main_v3 main_v16 ((extractStridedSlice S32768x80 ![12, 0] · slices_S32786x80_S32768x80_12_0) : (⟨S32786x80, .f32⟩ : BufTy).Contents (Elt F) → (⟨S32768x80, .f32⟩ : BufTy).Contents (Elt F)) := rfl
  have h := stage_unary ops_writes V 17 (by rw [ops_length]; omega) _ _ _ _ _ hop (by decide) (by decide)
  exact h

theorem st_v17 : W[main_v17] = extractStridedSlice S32768x80 ![13, 0] W[main_v3] slices_S32786x80_S32768x80_13_0 := by
  have hop : (ops (F := F))[18]'(by rw [ops_length]; omega) = StableHlo.unary main_v3 main_v17 ((extractStridedSlice S32768x80 ![13, 0] · slices_S32786x80_S32768x80_13_0) : (⟨S32786x80, .f32⟩ : BufTy).Contents (Elt F) → (⟨S32768x80, .f32⟩ : BufTy).Contents (Elt F)) := rfl
  have h := stage_unary ops_writes V 18 (by rw [ops_length]; omega) _ _ _ _ _ hop (by decide) (by decide)
  exact h

theorem st_v18 : W[main_v18] = extractStridedSlice S32768x80 ![14, 0] W[main_v3] slices_S32786x80_S32768x80_14_0 := by
  have hop : (ops (F := F))[19]'(by rw [ops_length]; omega) = StableHlo.unary main_v3 main_v18 ((extractStridedSlice S32768x80 ![14, 0] · slices_S32786x80_S32768x80_14_0) : (⟨S32786x80, .f32⟩ : BufTy).Contents (Elt F) → (⟨S32768x80, .f32⟩ : BufTy).Contents (Elt F)) := rfl
  have h := stage_unary ops_writes V 19 (by rw [ops_length]; omega) _ _ _ _ _ hop (by decide) (by decide)
  exact h

theorem st_v19 : W[main_v19] = extractStridedSlice S32768x80 ![15, 0] W[main_v3] slices_S32786x80_S32768x80_15_0 := by
  have hop : (ops (F := F))[20]'(by rw [ops_length]; omega) = StableHlo.unary main_v3 main_v19 ((extractStridedSlice S32768x80 ![15, 0] · slices_S32786x80_S32768x80_15_0) : (⟨S32786x80, .f32⟩ : BufTy).Contents (Elt F) → (⟨S32768x80, .f32⟩ : BufTy).Contents (Elt F)) := rfl
  have h := stage_unary ops_writes V 20 (by rw [ops_length]; omega) _ _ _ _ _ hop (by decide) (by decide)
  exact h

theorem st_v20 : W[main_v20] = extractStridedSlice S32768x80 ![16, 0] W[main_v3] slices_S32786x80_S32768x80_16_0 := by
  have hop : (ops (F := F))[21]'(by rw [ops_length]; omega) = StableHlo.unary main_v3 main_v20 ((extractStridedSlice S32768x80 ![16, 0] · slices_S32786x80_S32768x80_16_0) : (⟨S32786x80, .f32⟩ : BufTy).Contents (Elt F) → (⟨S32768x80, .f32⟩ : BufTy).Contents (Elt F)) := rfl
  have h := stage_unary ops_writes V 21 (by rw [ops_length]; omega) _ _ _ _ _ hop (by decide) (by decide)
  exact h

theorem st_v21 : W[main_v21] = extractStridedSlice S32768x80 ![17, 0] W[main_v3] slices_S32786x80_S32768x80_17_0 := by
  have hop : (ops (F := F))[22]'(by rw [ops_length]; omega) = StableHlo.unary main_v3 main_v21 ((extractStridedSlice S32768x80 ![17, 0] · slices_S32786x80_S32768x80_17_0) : (⟨S32786x80, .f32⟩ : BufTy).Contents (Elt F) → (⟨S32768x80, .f32⟩ : BufTy).Contents (Elt F)) := rfl
  have h := stage_unary ops_writes V 22 (by rw [ops_length]; omega) _ _ _ _ _ hop (by decide) (by decide)
  exact h

theorem st_v22 : W[main_v22] = extractStridedSlice S32768x80 ![18, 0] W[main_v3] slices_S32786x80_S32768x80_18_0 := by
  have hop : (ops (F := F))[23]'(by rw [ops_length]; omega) = StableHlo.unary main_v3 main_v22 ((extractStridedSlice S32768x80 ![18, 0] · slices_S32786x80_S32768x80_18_0) : (⟨S32786x80, .f32⟩ : BufTy).Contents (Elt F) → (⟨S32768x80, .f32⟩ : BufTy).Contents (Elt F)) := rfl
  have h := stage_unary ops_writes V 23 (by rw [ops_length]; omega) _ _ _ _ _ hop (by decide) (by decide)
  exact h

theorem st_v23 : W[main_v23] = broadcastInDim S32768x1x80 ![0, 2] bcast_S32768x80_S32768x1x80_0_2 W[main_v4] := by
  have hop : (ops (F := F))[24]'(by rw [ops_length]; omega) = StableHlo.unary main_v4 main_v23 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 24 (by rw [ops_length]; omega) _ _ _ _ _ hop (by decide) (by decide)
  exact h

theorem st_v24 : W[main_v24] = broadcastInDim S32768x1x80 ![0, 2] bcast_S32768x80_S32768x1x80_0_2 W[main_v5] := by
  have hop : (ops (F := F))[25]'(by rw [ops_length]; omega) = StableHlo.unary main_v5 main_v24 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 25 (by rw [ops_length]; omega) _ _ _ _ _ hop (by decide) (by decide)
  exact h

theorem st_v25 : W[main_v25] = broadcastInDim S32768x1x80 ![0, 2] bcast_S32768x80_S32768x1x80_0_2 W[main_v6] := by
  have hop : (ops (F := F))[26]'(by rw [ops_length]; omega) = StableHlo.unary main_v6 main_v25 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 26 (by rw [ops_length]; omega) _ _ _ _ _ hop (by decide) (by decide)
  exact h

theorem st_v26 : W[main_v26] = broadcastInDim S32768x1x80 ![0, 2] bcast_S32768x80_S32768x1x80_0_2 W[main_v7] := by
  have hop : (ops (F := F))[27]'(by rw [ops_length]; omega) = StableHlo.unary main_v7 main_v26 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 27 (by rw [ops_length]; omega) _ _ _ _ _ hop (by decide) (by decide)
  exact h

theorem st_v27 : W[main_v27] = broadcastInDim S32768x1x80 ![0, 2] bcast_S32768x80_S32768x1x80_0_2 W[main_v8] := by
  have hop : (ops (F := F))[28]'(by rw [ops_length]; omega) = StableHlo.unary main_v8 main_v27 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 28 (by rw [ops_length]; omega) _ _ _ _ _ hop (by decide) (by decide)
  exact h

theorem st_v28 : W[main_v28] = broadcastInDim S32768x1x80 ![0, 2] bcast_S32768x80_S32768x1x80_0_2 W[main_v9] := by
  have hop : (ops (F := F))[29]'(by rw [ops_length]; omega) = StableHlo.unary main_v9 main_v28 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 29 (by rw [ops_length]; omega) _ _ _ _ _ hop (by decide) (by decide)
  exact h

theorem st_v29 : W[main_v29] = broadcastInDim S32768x1x80 ![0, 2] bcast_S32768x80_S32768x1x80_0_2 W[main_v10] := by
  have hop : (ops (F := F))[30]'(by rw [ops_length]; omega) = StableHlo.unary main_v10 main_v29 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 30 (by rw [ops_length]; omega) _ _ _ _ _ hop (by decide) (by decide)
  exact h

theorem st_v30 : W[main_v30] = broadcastInDim S32768x1x80 ![0, 2] bcast_S32768x80_S32768x1x80_0_2 W[main_v11] := by
  have hop : (ops (F := F))[31]'(by rw [ops_length]; omega) = StableHlo.unary main_v11 main_v30 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 31 (by rw [ops_length]; omega) _ _ _ _ _ hop (by decide) (by decide)
  exact h

theorem st_v31 : W[main_v31] = broadcastInDim S32768x1x80 ![0, 2] bcast_S32768x80_S32768x1x80_0_2 W[main_v12] := by
  have hop : (ops (F := F))[32]'(by rw [ops_length]; omega) = StableHlo.unary main_v12 main_v31 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 32 (by rw [ops_length]; omega) _ _ _ _ _ hop (by decide) (by decide)
  exact h

theorem st_v32 : W[main_v32] = broadcastInDim S32768x1x80 ![0, 2] bcast_S32768x80_S32768x1x80_0_2 W[main_v13] := by
  have hop : (ops (F := F))[33]'(by rw [ops_length]; omega) = StableHlo.unary main_v13 main_v32 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 33 (by rw [ops_length]; omega) _ _ _ _ _ hop (by decide) (by decide)
  exact h

theorem st_v33 : W[main_v33] = broadcastInDim S32768x1x80 ![0, 2] bcast_S32768x80_S32768x1x80_0_2 W[main_v14] := by
  have hop : (ops (F := F))[34]'(by rw [ops_length]; omega) = StableHlo.unary main_v14 main_v33 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 34 (by rw [ops_length]; omega) _ _ _ _ _ hop (by decide) (by decide)
  exact h

theorem st_v34 : W[main_v34] = broadcastInDim S32768x1x80 ![0, 2] bcast_S32768x80_S32768x1x80_0_2 W[main_v15] := by
  have hop : (ops (F := F))[35]'(by rw [ops_length]; omega) = StableHlo.unary main_v15 main_v34 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 35 (by rw [ops_length]; omega) _ _ _ _ _ hop (by decide) (by decide)
  exact h

theorem st_v35 : W[main_v35] = broadcastInDim S32768x1x80 ![0, 2] bcast_S32768x80_S32768x1x80_0_2 W[main_v16] := by
  have hop : (ops (F := F))[36]'(by rw [ops_length]; omega) = StableHlo.unary main_v16 main_v35 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 36 (by rw [ops_length]; omega) _ _ _ _ _ hop (by decide) (by decide)
  exact h

theorem st_v36 : W[main_v36] = broadcastInDim S32768x1x80 ![0, 2] bcast_S32768x80_S32768x1x80_0_2 W[main_v17] := by
  have hop : (ops (F := F))[37]'(by rw [ops_length]; omega) = StableHlo.unary main_v17 main_v36 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 37 (by rw [ops_length]; omega) _ _ _ _ _ hop (by decide) (by decide)
  exact h

theorem st_v37 : W[main_v37] = broadcastInDim S32768x1x80 ![0, 2] bcast_S32768x80_S32768x1x80_0_2 W[main_v18] := by
  have hop : (ops (F := F))[38]'(by rw [ops_length]; omega) = StableHlo.unary main_v18 main_v37 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 38 (by rw [ops_length]; omega) _ _ _ _ _ hop (by decide) (by decide)
  exact h

theorem st_v38 : W[main_v38] = broadcastInDim S32768x1x80 ![0, 2] bcast_S32768x80_S32768x1x80_0_2 W[main_v19] := by
  have hop : (ops (F := F))[39]'(by rw [ops_length]; omega) = StableHlo.unary main_v19 main_v38 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 39 (by rw [ops_length]; omega) _ _ _ _ _ hop (by decide) (by decide)
  exact h

theorem st_v39 : W[main_v39] = broadcastInDim S32768x1x80 ![0, 2] bcast_S32768x80_S32768x1x80_0_2 W[main_v20] := by
  have hop : (ops (F := F))[40]'(by rw [ops_length]; omega) = StableHlo.unary main_v20 main_v39 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 40 (by rw [ops_length]; omega) _ _ _ _ _ hop (by decide) (by decide)
  exact h

theorem st_v40 : W[main_v40] = broadcastInDim S32768x1x80 ![0, 2] bcast_S32768x80_S32768x1x80_0_2 W[main_v21] := by
  have hop : (ops (F := F))[41]'(by rw [ops_length]; omega) = StableHlo.unary main_v21 main_v40 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 41 (by rw [ops_length]; omega) _ _ _ _ _ hop (by decide) (by decide)
  exact h

theorem st_v41 : W[main_v41] = broadcastInDim S32768x1x80 ![0, 2] bcast_S32768x80_S32768x1x80_0_2 W[main_v22] := by
  have hop : (ops (F := F))[42]'(by rw [ops_length]; omega) = StableHlo.unary main_v22 main_v41 (broadcastInDim S32768x1x80 ![0, 2] bcast_S32768x80_S32768x1x80_0_2 : (⟨S32768x80, .f32⟩ : BufTy).Contents (Elt F) → (⟨S32768x1x80, .f32⟩ : BufTy).Contents (Elt F)) := rfl
  have h := stage_unary ops_writes V 42 (by rw [ops_length]; omega) _ _ _ _ _ hop (by decide) (by decide)
  exact h

theorem st_v42 : W[main_v42] = concatenate S32768x16x80 1 [⟨S32768x1x80, W[main_v23]⟩, ⟨S32768x1x80, W[main_v24]⟩, ⟨S32768x1x80, W[main_v25]⟩, ⟨S32768x1x80, W[main_v26]⟩, ⟨S32768x1x80, W[main_v27]⟩, ⟨S32768x1x80, W[main_v28]⟩, ⟨S32768x1x80, W[main_v29]⟩, ⟨S32768x1x80, W[main_v30]⟩, ⟨S32768x1x80, W[main_v31]⟩, ⟨S32768x1x80, W[main_v32]⟩, ⟨S32768x1x80, W[main_v33]⟩, ⟨S32768x1x80, W[main_v34]⟩, ⟨S32768x1x80, W[main_v35]⟩, ⟨S32768x1x80, W[main_v36]⟩, ⟨S32768x1x80, W[main_v37]⟩, ⟨S32768x1x80, W[main_v38]⟩]
    concatenates_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x16x80_d1 := by
  have hop : (ops (F := F))[43]'(by rw [ops_length]; omega) = StableHlo.nary ![main_v23, main_v24, main_v25, main_v26, main_v27, main_v28, main_v29, main_v30, main_v31, main_v32, main_v33, main_v34, main_v35, main_v36, main_v37, main_v38] main_v42 (fun u => concatenate S32768x16x80 1 [⟨S32768x1x80, u 0⟩, ⟨S32768x1x80, u 1⟩, ⟨S32768x1x80, u 2⟩, ⟨S32768x1x80, u 3⟩, ⟨S32768x1x80, u 4⟩, ⟨S32768x1x80, u 5⟩, ⟨S32768x1x80, u 6⟩, ⟨S32768x1x80, u 7⟩, ⟨S32768x1x80, u 8⟩, ⟨S32768x1x80, u 9⟩, ⟨S32768x1x80, u 10⟩, ⟨S32768x1x80, u 11⟩, ⟨S32768x1x80, u 12⟩, ⟨S32768x1x80, u 13⟩, ⟨S32768x1x80, u 14⟩, ⟨S32768x1x80, u 15⟩] concatenates_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x1x80_S32768x16x80_d1) := rfl
  have h := stage_nary ops_writes V 43 (by rw [ops_length]; omega) _ _ _ _ _ hop (by decide) (by decide)
  exact h

theorem st_v43 : W[main_v43] = concatenate S32768x3x80 1 [⟨S32768x1x80, W[main_v39]⟩, ⟨S32768x1x80, W[main_v40]⟩, ⟨S32768x1x80, W[main_v41]⟩]
    concatenates_S32768x1x80_S32768x1x80_S32768x1x80_S32768x3x80_d1 := by
  have hop : (ops (F := F))[44]'(by rw [ops_length]; omega) = StableHlo.nary ![main_v39, main_v40, main_v41] main_v43 (fun u => concatenate S32768x3x80 1 [⟨S32768x1x80, u 0⟩, ⟨S32768x1x80, u 1⟩, ⟨S32768x1x80, u 2⟩] concatenates_S32768x1x80_S32768x1x80_S32768x1x80_S32768x3x80_d1) := rfl
  have h := stage_nary ops_writes V 44 (by rw [ops_length]; omega) _ _ _ _ _ hop (by decide) (by decide)
  exact h

theorem st_v44 : W[main_v44] = concatenate S32768x19x80 1 [⟨S32768x16x80, W[main_v42]⟩, ⟨S32768x3x80, W[main_v43]⟩]
    concatenates_S32768x16x80_S32768x3x80_S32768x19x80_d1 := by
  have hop : (ops (F := F))[45]'(by rw [ops_length]; omega) = StableHlo.binary main_v42 main_v43 main_v44 ((fun a b => concatenate S32768x19x80 1 [⟨S32768x16x80, a⟩, ⟨S32768x3x80, b⟩] concatenates_S32768x16x80_S32768x3x80_S32768x19x80_d1) : (⟨S32768x16x80, .f32⟩ : BufTy).Contents (Elt F) → (⟨S32768x3x80, .f32⟩ : BufTy).Contents (Elt F) → (⟨S32768x19x80, .f32⟩ : BufTy).Contents (Elt F)) := rfl
  have h := stage_binary ops_writes V 45 (by rw [ops_length]; omega) _ _ _ _ _ _ _ hop (by decide) (by decide) (by decide)
  exact h

theorem st_v45 : W[main_v45] = shapeCast S32768x1520 W[main_v44] shapeCasts_S32768x19x80_S32768x1520 := by
  have hop : (ops (F := F))[46]'(by rw [ops_length]; omega) = StableHlo.reshape main_v44 main_v45 rfl shapeCasts_S32768x19x80_S32768x1520 := rfl
  have h := stage_reshape ops_writes V 46 (by rw [ops_length]; omega) _ _ _ _ _ _ hop (by decide) (by decide)
  exact h

theorem st_v46 : W[main_v46] = transpose S1520x32768 [1, 0] W[main_v45] transposes_S32768x1520_S1520x32768_1_0 := by
  have hop : (ops (F := F))[47]'(by rw [ops_length]; omega) = StableHlo.unary main_v45 main_v46 ((transpose S1520x32768 [1, 0] · transposes_S32768x1520_S1520x32768_1_0) : (⟨S32768x1520, .f32⟩ : BufTy).Contents (Elt F) → (⟨S1520x32768, .f32⟩ : BufTy).Contents (Elt F)) := rfl
  have h := stage_unary ops_writes V 47 (by rw [ops_length]; omega) _ _ _ _ _ hop (by decide) (by decide)
  exact h

theorem st_v47 : W[main_v47] = broadcastInDim S1x1520x32768 ![1, 2] bcast_S1520x32768_S1x1520x32768_1_2 W[main_v46] := by
  have hop : (ops (F := F))[48]'(by rw [ops_length]; omega) = StableHlo.unary main_v46 main_v47 (broadcastInDim S1x1520x32768 ![1, 2] bcast_S1520x32768_S1x1520x32768_1_2 : (⟨S1520x32768, .f32⟩ : BufTy).Contents (Elt F) → (⟨S1x1520x32768, .f32⟩ : BufTy).Contents (Elt F)) := rfl
  have h := stage_unary ops_writes V 48 (by rw [ops_length]; omega) _ _ _ _ _ hop (by decide) (by decide)
  exact h

/- What follows uses the final contents through the equations above only. -/
attribute [irreducible] fin

end Cert.Context.Ref

end
-- ==== Proof.LibConcatUnit.lean ====
/-
  A concatenation of pieces whose extent along the joined axis is one, read at an index given by coordinates:
  the piece the coordinate on the joined axis names, read at the same remaining coordinates.
  Two layouts: columns [R, 1] joined into [R, N], and slabs [R, 1, C] joined along the middle axis into [R, N, C].
-/
import Idealize.ShloMosaic.Lib.Pipeline.Value
import Idealize.ShloMosaic.Lib.ValueIdx

noncomputable section

namespace Idealize.ShloMosaic.ConcatUnit

open Idealize.ShloMosaic Idealize.ShloMosaic.ValueIdx

variable {α : Type}

/-- N columns of shape [R, 1] joined along axis 1: entry (r, n) of the result is entry (r, 0) of column n. -/
theorem concatenate_cols_apply {R N : Nat} (f : Fin N → ((⟨2, ![R, 1]⟩ : Shape).Idx → α))
    (xs : List ((s : Shape) × (s.Idx → α)))
    (hxs : xs = List.ofFn fun n : Fin N => (⟨⟨2, ![R, 1]⟩, f n⟩ : (s : Shape) × (s.Idx → α)))
    (h : Shape.Concatenates (xs.map (·.1)) ⟨2, ![R, N]⟩ 1) (r : Fin R) (n : Fin N) :
    concatenate ⟨2, ![R, N]⟩ 1 xs h (ix2 r n) = f n (ix2 r 0) := by
  subst hxs
  exact concatenate_ofFn_unit_apply (t := ⟨2, ![R, N]⟩) (s₁ := ⟨2, ![R, 1]⟩) 1 f h rfl rfl (ix2 r n) n rfl (ix2 r 0)
    (fun b hb => by match b with | ⟨0, _⟩ => rfl | ⟨1, _⟩ => exact absurd rfl hb)

/-- N slabs of shape [R, 1, C] joined along axis 1: entry (r, n, c) of the result is entry (r, 0, c) of slab n. -/
theorem concatenate_mid_apply {R N C : Nat} (f : Fin N → ((⟨3, ![R, 1, C]⟩ : Shape).Idx → α))
    (xs : List ((s : Shape) × (s.Idx → α)))
    (hxs : xs = List.ofFn fun n : Fin N => (⟨⟨3, ![R, 1, C]⟩, f n⟩ : (s : Shape) × (s.Idx → α)))
    (h : Shape.Concatenates (xs.map (·.1)) ⟨3, ![R, N, C]⟩ 1) (r : Fin R) (n : Fin N) (c : Fin C) :
    concatenate ⟨3, ![R, N, C]⟩ 1 xs h (ix3 r n c) = f n (ix3 r 0 c) := by
  subst hxs
  exact concatenate_ofFn_unit_apply (t := ⟨3, ![R, N, C]⟩) (s₁ := ⟨3, ![R, 1, C]⟩) 1 f h rfl rfl (ix3 r n c) n rfl (ix3 r 0 c)
    (fun b hb => by match b with | ⟨0, _⟩ => rfl | ⟨1, _⟩ => exact absurd rfl hb | ⟨2, _⟩ => rfl)

/-- Three columns joined: entry (r, j) is entry (r, 0) of column j, the column chosen by cases on j. -/
theorem cols3_apply {R : Nat} (a b c : (⟨2, ![R, 1]⟩ : Shape).Idx → α)
    (h : Shape.Concatenates [(⟨2, ![R, 1]⟩ : Shape), ⟨2, ![R, 1]⟩, ⟨2, ![R, 1]⟩] ⟨2, ![R, 3]⟩ 1) (r : Fin R) (j : Fin 3) :
    concatenate ⟨2, ![R, 3]⟩ 1 [⟨⟨2, ![R, 1]⟩, a⟩, ⟨⟨2, ![R, 1]⟩, b⟩, ⟨⟨2, ![R, 1]⟩, c⟩] h (ix2 r j)
      = (match j with | ⟨0, _⟩ => a | ⟨1, _⟩ => b | ⟨2, _⟩ => c) (ix2 r 0) := by
  refine (concatenate_cols_apply ![a, b, c] _ rfl h r j).trans ?_
  match j with
  | ⟨0, _⟩ => rfl
  | ⟨1, _⟩ => rfl
  | ⟨2, _⟩ => rfl

/-- Three slabs joined along the middle axis: entry (r, i, c) is entry (r, 0, c) of slab i, chosen by cases on i. -/
theorem slabs3_apply {R C : Nat} (a b c : (⟨3, ![R, 1, C]⟩ : Shape).Idx → α)
    (h : Shape.Concatenates [(⟨3, ![R, 1, C]⟩ : Shape), ⟨3, ![R, 1, C]⟩, ⟨3, ![R, 1, C]⟩] ⟨3, ![R, 3, C]⟩ 1)
    (r : Fin R) (i : Fin 3) (k : Fin C) :
    concatenate ⟨3, ![R, 3, C]⟩ 1 [⟨⟨3, ![R, 1, C]⟩, a⟩, ⟨⟨3, ![R, 1, C]⟩, b⟩, ⟨⟨3, ![R, 1, C]⟩, c⟩] h (ix3 r i k)
      = (match i with | ⟨0, _⟩ => a | ⟨1, _⟩ => b | ⟨2, _⟩ => c) (ix3 r 0 k) := by
  refine (concatenate_mid_apply ![a, b, c] _ rfl h r i k).trans ?_
  match i with
  | ⟨0, _⟩ => rfl
  | ⟨1, _⟩ => rfl
  | ⟨2, _⟩ => rfl

end Idealize.ShloMosaic.ConcatUnit

end
-- ==== Proof.RefRead.lean ====
/-
  The reference program's layout operations read at an index, each group of them as one statement about arrays:
  the signal between nine filler rows, one window of it with a unit middle axis, the stack of the nineteen windows,
  the stack flattened to rows by steps, and the signal turned to steps by features. Together: if the intermediate
  arrays are related as the operations relate them, the result is the array of frames of the shared specification.
-/
import Idealize.ShloMosaic.Lib.Pipeline.Value
import Idealize.ShloMosaic.Lib.ValueIdx
import proofs.«145936_j53283364274940_2_alg».proof.ReferenceIdeal
import proofs.«145936_j53283364274940_2_alg».proof.Proof.LibConcatUnit
import proofs.«145936_j53283364274940_2_alg».proof.Proof.Spec

noncomputable section

namespace Cert.Context.Ref

open Cert.ReferenceIdeal Idealize.ShloMosaic Idealize.ShloMosaic.ValueIdx Idealize.ShloMosaic.ConcatUnit

variable {α : Type}

/-- Steps by features from the signal: step `q`, feature `f` is the signal's feature `f` at step `q`. -/
theorem in_apply (x : S1x80x32768.Idx → α) (hc : S1x80x32768.ShapeCasts S80x32768)
    (ht : S80x32768.Transposes [1, 0] S32768x80) (q : Fin 32768) (f : Fin 80) :
    transpose S32768x80 [1, 0] (shapeCast S80x32768 x hc) ht (ix2 q f) = x (ix3 (0 : Fin 1) f q) := by
  refine (transpose_apply _ _ ht (ix2 q f) (ix2 f q) fun b => ?_).trans ?_
  · match b with
    | ⟨0, _⟩ => rfl
    | ⟨1, _⟩ => rfl
  · refine shapeCast_apply x hc (ix2 f q) (ix3 (0 : Fin 1) f q) ?_
    rw [Shape.rowMajor_val_three, Shape.rowMajor_val_two]
    show (0 * 80 + f.val) * 32768 + q.val = f.val * 32768 + q.val
    omega

/-- Nine filler rows, the 32768 rows `Y`, nine filler rows: row `p` is row `p - 9` of `Y` when `9 ≤ p < 32777`,
    filler otherwise. -/
theorem rows_apply (z : α) (Z : S9x80.Idx → α) (Y : S32768x80.Idx → α) (hZ : ∀ i, Z i = z)
    (h : Shape.Concatenates [S9x80, S32768x80, S9x80] S32786x80 0) (p : Fin 32786) (f : Fin 80) :
    concatenate S32786x80 0 [⟨S9x80, Z⟩, ⟨S32768x80, Y⟩, ⟨S9x80, Z⟩] h (ix2 p f)
      = if hp : 9 ≤ p.val ∧ p.val < 32777 then Y (ix2 (⟨p.val - 9, by omega⟩ : Fin 32768) f) else z := by
  by_cases hp : 9 ≤ p.val ∧ p.val < 32777
  · rw [dif_pos hp]
    exact concatenate_apply_piece (t := S32786x80) (0 : Fin 2) [⟨S9x80, Z⟩, ⟨S32768x80, Y⟩, ⟨S9x80, Z⟩] h (ix2 p f) 1 (by show 1 < 3; omega) S32768x80 Y rfl rfl 9 rfl
      (ix2 (⟨p.val - 9, by omega⟩ : Fin 32768) f)
      (fun b hb => by match b with | ⟨0, _⟩ => exact absurd rfl hb | ⟨1, _⟩ => rfl)
      (by show 9 + (p.val - 9) = p.val; omega)
  · rw [dif_neg hp]
    by_cases h9 : p.val < 9
    · exact (concatenate_apply_piece (t := S32786x80) (0 : Fin 2) [⟨S9x80, Z⟩, ⟨S32768x80, Y⟩, ⟨S9x80, Z⟩] h (ix2 p f) 0 (by show 0 < 3; omega) S9x80 Z rfl rfl 0 rfl
        (ix2 (⟨p.val, h9⟩ : Fin 9) f)
        (fun b hb => by match b with | ⟨0, _⟩ => exact absurd rfl hb | ⟨1, _⟩ => rfl)
        (by show 0 + p.val = p.val; omega)).trans (hZ _)
    · have hp' := p.isLt
      exact (concatenate_apply_piece (t := S32786x80) (0 : Fin 2) [⟨S9x80, Z⟩, ⟨S32768x80, Y⟩, ⟨S9x80, Z⟩] h (ix2 p f) 2 (by show 2 < 3; omega) S9x80 Z rfl rfl 32777 rfl
        (ix2 (⟨p.val - 32777, by omega⟩ : Fin 9) f)
        (fun b hb => by match b with | ⟨0, _⟩ => exact absurd rfl hb | ⟨1, _⟩ => rfl)
        (by show 32777 + (p.val - 32777) = p.val; omega)).trans (hZ _)

/-- Window `w` of the rows, given a unit middle axis: its row `t` is row `t + w`. -/
theorem window_apply (w : Fin 19) (X : S32786x80.Idx → α) (hs : S32786x80.Slices ![w.val, 0] S32768x80)
    (hb : S32768x80.BroadcastsInDim S32768x1x80 (![0, 2] : Fin 2 → Fin S32768x1x80.rank)) (t : Fin 32768) (f : Fin 80) :
    broadcastInDim S32768x1x80 ![0, 2] hb (extractStridedSlice S32768x80 ![w.val, 0] X hs) (ix3 t (0 : Fin 1) f)
      = X (ix2 (⟨t.val + w.val, by omega⟩ : Fin 32786) f) := by
  refine (broadcastInDim_apply _ hb _ (ix3 t (0 : Fin 1) f) (ix2 t f) fun a => ?_).trans ?_
  · match a with
    | ⟨0, _⟩ => rfl
    | ⟨1, _⟩ => rfl
  · refine extractStridedSlice_apply _ X hs (ix2 t f) (ix2 (⟨t.val + w.val, by omega⟩ : Fin 32786) f) fun a => ?_
    match a with
    | ⟨0, _⟩ => show t.val + w.val = w.val + t.val; omega
    | ⟨1, _⟩ => show f.val = 0 + f.val; omega

/-- The nineteen slabs stacked along the middle axis, sixteen and three and then the two: entry (t, w, f) is slab
    `w` at (t, 0, f). -/
theorem stack_apply (sb : Fin 19 → S32768x1x80.Idx → α)
    (h16 : Shape.Concatenates [S32768x1x80, S32768x1x80, S32768x1x80, S32768x1x80, S32768x1x80, S32768x1x80, S32768x1x80, S32768x1x80, S32768x1x80, S32768x1x80, S32768x1x80, S32768x1x80, S32768x1x80, S32768x1x80, S32768x1x80, S32768x1x80] S32768x16x80 1)
    (h3 : Shape.Concatenates [S32768x1x80, S32768x1x80, S32768x1x80] S32768x3x80 1)
    (h2 : Shape.Concatenates [S32768x16x80, S32768x3x80] S32768x19x80 1) (t : Fin 32768) (w : Fin 19) (f : Fin 80) :
    concatenate S32768x19x80 1
      [⟨S32768x16x80, concatenate S32768x16x80 1 [⟨S32768x1x80, sb 0⟩, ⟨S32768x1x80, sb 1⟩, ⟨S32768x1x80, sb 2⟩, ⟨S32768x1x80, sb 3⟩, ⟨S32768x1x80, sb 4⟩, ⟨S32768x1x80, sb 5⟩, ⟨S32768x1x80, sb 6⟩, ⟨S32768x1x80, sb 7⟩, ⟨S32768x1x80, sb 8⟩, ⟨S32768x1x80, sb 9⟩, ⟨S32768x1x80, sb 10⟩, ⟨S32768x1x80, sb 11⟩, ⟨S32768x1x80, sb 12⟩, ⟨S32768x1x80, sb 13⟩, ⟨S32768x1x80, sb 14⟩, ⟨S32768x1x80, sb 15⟩] h16⟩,
       ⟨S32768x3x80, concatenate S32768x3x80 1 [⟨S32768x1x80, sb 16⟩, ⟨S32768x1x80, sb 17⟩, ⟨S32768x1x80, sb 18⟩] h3⟩] h2
      (ix3 t w f) = sb w (ix3 t (0 : Fin 1) f) := by
  by_cases hw : w.val < 16
  · refine (concatenate_pair_apply_left (t := S32768x19x80) (s₁ := S32768x16x80) (s₂ := S32768x3x80) (1 : Fin 3) _ _ h2 (ix3 t w f) rfl (ix3 t (⟨w.val, hw⟩ : Fin 16) f) fun b => ?_).trans ?_
    · match b with
      | ⟨0, _⟩ => rfl
      | ⟨1, _⟩ => rfl
      | ⟨2, _⟩ => rfl
    · exact concatenate_mid_apply (fun n : Fin 16 => sb ⟨n.val, by omega⟩) _ rfl h16 t (⟨w.val, hw⟩ : Fin 16) f
  · have hw' := w.isLt
    refine (concatenate_pair_apply_right (t := S32768x19x80) (s₁ := S32768x16x80) (s₂ := S32768x3x80) (1 : Fin 3) _ _ h2 (ix3 t w f) rfl rfl (ix3 t (⟨w.val - 16, by omega⟩ : Fin 3) f)
      (fun b hb => ?_) ?_).trans ?_
    · match b with
      | ⟨0, _⟩ => rfl
      | ⟨1, _⟩ => exact absurd rfl hb
      | ⟨2, _⟩ => rfl
    · show w.val - 16 + 16 = w.val
      omega
    · refine (slabs3_apply (sb 16) (sb 17) (sb 18) h3 t (⟨w.val - 16, by omega⟩ : Fin 3) f).trans ?_
      obtain ⟨wv, hwv⟩ := w
      have hc : wv = 16 ∨ wv = 17 ∨ wv = 18 := by
        have : ¬ wv < 16 := hw
        omega
      rcases hc with rfl | rfl | rfl <;> rfl

/-- The stack flattened, turned to rows by steps and given a unit leading axis: row `w · 80 + f` at step `t` is the
    stack's entry (t, w, f). -/
theorem out_apply (X : S32768x19x80.Idx → α) (hc : S32768x19x80.ShapeCasts S32768x1520)
    (ht : S32768x1520.Transposes [1, 0] S1520x32768)
    (hb : S1520x32768.BroadcastsInDim S1x1520x32768 (![1, 2] : Fin 2 → Fin S1x1520x32768.rank))
    (t : Fin 32768) (w : Fin 19) (f : Fin 80) (r : Fin 1520) (hr : r.val = w.val * 80 + f.val) :
    broadcastInDim S1x1520x32768 ![1, 2] hb (transpose S1520x32768 [1, 0] (shapeCast S32768x1520 X hc) ht) (ix3 (0 : Fin 1) r t)
      = X (ix3 t w f) := by
  refine (broadcastInDim_apply _ hb _ (ix3 (0 : Fin 1) r t) (ix2 r t) fun a => ?_).trans ?_
  · match a with
    | ⟨0, _⟩ => rfl
    | ⟨1, _⟩ => rfl
  refine (transpose_apply _ _ ht (ix2 r t) (ix2 t r) fun b => ?_).trans ?_
  · match b with
    | ⟨0, _⟩ => rfl
    | ⟨1, _⟩ => rfl
  refine shapeCast_apply X hc (ix2 t r) (ix3 t w f) ?_
  rw [Shape.rowMajor_val_three, Shape.rowMajor_val_two]
  show (t.val * 19 + w.val) * 80 + f.val = t.val * 1520 + r.val
  omega

/-- If the rows are the signal between filler, each slab a window of the rows, the stack the slabs and the result
    the stack flattened, then the result is the array of frames. -/
theorem frames_of_stages (z : α) (x : S1x80x32768.Idx → α) (X3 : S32786x80.Idx → α)
    (sb : Fin 19 → S32768x1x80.Idx → α) (X44 : S32768x19x80.Idx → α) (X47 : S1x1520x32768.Idx → α)
    (h3 : ∀ (p : Fin 32786) (f : Fin 80), X3 (ix2 p f)
      = if hp : 9 ≤ p.val ∧ p.val < 32777 then x (ix3 (0 : Fin 1) f (⟨p.val - 9, by omega⟩ : Fin 32768)) else z)
    (hsb : ∀ (w : Fin 19) (t : Fin 32768) (f : Fin 80),
      sb w (ix3 t (0 : Fin 1) f) = X3 (ix2 (⟨t.val + w.val, by omega⟩ : Fin 32786) f))
    (h44 : ∀ (t : Fin 32768) (w : Fin 19) (f : Fin 80), X44 (ix3 t w f) = sb w (ix3 t (0 : Fin 1) f))
    (h47 : ∀ (t : Fin 32768) (w : Fin 19) (f : Fin 80) (r : Fin 1520), r.val = w.val * 80 + f.val →
      X47 (ix3 (0 : Fin 1) r t) = X44 (ix3 t w f)) :
    X47 = Cert.Context.frames z x := by
  funext j
  obtain ⟨a, r, t, rfl⟩ : ∃ (a : Fin 1) (r : Fin 1520) (t : Fin 32768), j = ix3 a r t := ⟨j 0, j 1, j 2, eq_ix3 j⟩
  obtain rfl : a = 0 := Subsingleton.elim _ _
  have hr := r.isLt
  let w : Fin 19 := ⟨r.val / 80, by omega⟩
  let f : Fin 80 := ⟨r.val % 80, Nat.mod_lt _ (by decide)⟩
  have hrw : r.val = w.val * 80 + f.val := by
    show r.val = r.val / 80 * 80 + r.val % 80
    omega
  rw [h47 t w f r hrw, h44, hsb, h3, Cert.Context.frames_apply z x w f t r hrw]

end Cert.Context.Ref

end
-- ==== Proof.RefValue.lean ====
/-
  The reference program's result, read off the equations of its operations at the ideal instance: when the whole
  program has run, its result holds the array of frames of the signal with filler zero, and the signal is unchanged.
  Then the run: every weakly fair execution of the program terminates in such a state.
-/
import proofs.«145936_j53283364274940_2_alg».proof.Proof.RefStages
import proofs.«145936_j53283364274940_2_alg».proof.Proof.RefRead
import Idealize.ShloMosaic.PureOps.Ideal.Laws

noncomputable section

namespace Cert.Context.Ref

open Cert.ReferenceIdeal Cert.ReferenceIdeal.Facts₀ Idealize.ShloMosaic Idealize.ShloMosaic.TcCoe Idealize.SL.Sem
  Idealize.ShloMosaic.StableHlo Idealize.ShloMosaic.ValueIdx

variable [Cert.ReferenceIdeal.Facts]

section Value

variable (V : Valuation τ sig (Elt Ideal))

set_option quotPrecheck false in
/-- What a tensor value holds when the whole program has run from contents `V`. -/
local notation "W[" r "]" => fin V (Proc.devRef .tc r)

/-- The filler rows are zero: the zero constant, broadcast. -/
theorem filler_zero (i : S9x80.Idx) : W[main_v2] i = (0 : EReal) := by
  rw [st_v2 V, st_cst V]
  refine (broadcastInDim_apply _ bcast_S_S9x80 _ i ix0 fun a => a.elim0).trans ?_
  exact Ideal.ofBits_zero_f32

/-- The rows: the signal's steps between nine rows of zero before and after. -/
theorem rows_eq (p : Fin 32786) (f : Fin 80) :
    W[main_v3] (ix2 p f)
      = if hp : 9 ≤ p.val ∧ p.val < 32777 then
          V (Proc.devRef .tc main_arg0) (ix3 (0 : Fin 1) f (⟨p.val - 9, by omega⟩ : Fin 32768))
        else (0 : EReal) := by
  rw [st_v3 V]
  refine (rows_apply (0 : EReal) W[main_v2] W[main_v1] (filler_zero V) _ p f).trans ?_
  by_cases hp : 9 ≤ p.val ∧ p.val < 32777
  · rw [dif_pos hp, dif_pos hp, st_v1 V, st_v0 V, st_arg0 V]
    exact in_apply _ _ _ _ f
  · rw [dif_neg hp, dif_neg hp]

/-- Window `w` of the rows with its unit middle axis: its row `t` is row `t + w` of the rows. One statement per window. -/
theorem slab_eq_0 (t : Fin 32768) (f : Fin 80) :
    W[main_v23] (ix3 t (0 : Fin 1) f) = W[main_v3] (ix2 (⟨t.val + 0, by omega⟩ : Fin 32786) f) := by
  rw [st_v23 V, st_v4 V]
  exact window_apply (⟨0, by omega⟩ : Fin 19) _ _ _ t f

theorem slab_eq_1 (t : Fin 32768) (f : Fin 80) :
    W[main_v24] (ix3 t (0 : Fin 1) f) = W[main_v3] (ix2 (⟨t.val + 1, by omega⟩ : Fin 32786) f) := by
  rw [st_v24 V, st_v5 V]
  exact window_apply (⟨1, by omega⟩ : Fin 19) _ _ _ t f

theorem slab_eq_2 (t : Fin 32768) (f : Fin 80) :
    W[main_v25] (ix3 t (0 : Fin 1) f) = W[main_v3] (ix2 (⟨t.val + 2, by omega⟩ : Fin 32786) f) := by
  rw [st_v25 V, st_v6 V]
  exact window_apply (⟨2, by omega⟩ : Fin 19) _ _ _ t f

theorem slab_eq_3 (t : Fin 32768) (f : Fin 80) :
    W[main_v26] (ix3 t (0 : Fin 1) f) = W[main_v3] (ix2 (⟨t.val + 3, by omega⟩ : Fin 32786) f) := by
  rw [st_v26 V, st_v7 V]
  exact window_apply (⟨3, by omega⟩ : Fin 19) _ _ _ t f

theorem slab_eq_4 (t : Fin 32768) (f : Fin 80) :
    W[main_v27] (ix3 t (0 : Fin 1) f) = W[main_v3] (ix2 (⟨t.val + 4, by omega⟩ : Fin 32786) f) := by
  rw [st_v27 V, st_v8 V]
  exact window_apply (⟨4, by omega⟩ : Fin 19) _ _ _ t f

theorem slab_eq_5 (t : Fin 32768) (f : Fin 80) :
    W[main_v28] (ix3 t (0 : Fin 1) f) = W[main_v3] (ix2 (⟨t.val + 5, by omega⟩ : Fin 32786) f) := by
  rw [st_v28 V, st_v9 V]
  exact window_apply (⟨5, by omega⟩ : Fin 19) _ _ _ t f

theorem slab_eq_6 (t : Fin 32768) (f : Fin 80) :
    W[main_v29] (ix3 t (0 : Fin 1) f) = W[main_v3] (ix2 (⟨t.val + 6, by omega⟩ : Fin 32786) f) := by
  rw [st_v29 V, st_v10 V]
  exact window_apply (⟨6, by omega⟩ : Fin 19) _ _ _ t f

theorem slab_eq_7 (t : Fin 32768) (f : Fin 80) :
    W[main_v30] (ix3 t (0 : Fin 1) f) = W[main_v3] (ix2 (⟨t.val + 7, by omega⟩ : Fin 32786) f) := by
  rw [st_v30 V, st_v11 V]
  exact window_apply (⟨7, by omega⟩ : Fin 19) _ _ _ t f

theorem slab_eq_8 (t : Fin 32768) (f : Fin 80) :
    W[main_v31] (ix3 t (0 : Fin 1) f) = W[main_v3] (ix2 (⟨t.val + 8, by omega⟩ : Fin 32786) f) := by
  rw [st_v31 V, st_v12 V]
  exact window_apply (⟨8, by omega⟩ : Fin 19) _ _ _ t f

theorem slab_eq_9 (t : Fin 32768) (f : Fin 80) :
    W[main_v32] (ix3 t (0 : Fin 1) f) = W[main_v3] (ix2 (⟨t.val + 9, by omega⟩ : Fin 32786) f) := by
  rw [st_v32 V, st_v13 V]
  exact window_apply (⟨9, by omega⟩ : Fin 19) _ _ _ t f

theorem slab_eq_10 (t : Fin 32768) (f : Fin 80) :
    W[main_v33] (ix3 t (0 : Fin 1) f) = W[main_v3] (ix2 (⟨t.val + 10, by omega⟩ : Fin 32786) f) := by
  rw [st_v33 V, st_v14 V]
  exact window_apply (⟨10, by omega⟩ : Fin 19) _ _ _ t f

theorem slab_eq_11 (t : Fin 32768) (f : Fin 80) :
    W[main_v34] (ix3 t (0 : Fin 1) f) = W[main_v3] (ix2 (⟨t.val + 11, by omega⟩ : Fin 32786) f) := by
  rw [st_v34 V, st_v15 V]
  exact window_apply (⟨11, by omega⟩ : Fin 19) _ _ _ t f

theorem slab_eq_12 (t : Fin 32768) (f : Fin 80) :
    W[main_v35] (ix3 t (0 : Fin 1) f) = W[main_v3] (ix2 (⟨t.val + 12, by omega⟩ : Fin 32786) f) := by
  rw [st_v35 V, st_v16 V]
  exact window_apply (⟨12, by omega⟩ : Fin 19) _ _ _ t f

theorem slab_eq_13 (t : Fin 32768) (f : Fin 80) :
    W[main_v36] (ix3 t (0 : Fin 1) f) = W[main_v3] (ix2 (⟨t.val + 13, by omega⟩ : Fin 32786) f) := by
  rw [st_v36 V, st_v17 V]
  exact window_apply (⟨13, by omega⟩ : Fin 19) _ _ _ t f

theorem slab_eq_14 (t : Fin 32768) (f : Fin 80) :
    W[main_v37] (ix3 t (0 : Fin 1) f) = W[main_v3] (ix2 (⟨t.val + 14, by omega⟩ : Fin 32786) f) := by
  rw [st_v37 V, st_v18 V]
  exact window_apply (⟨14, by omega⟩ : Fin 19) _ _ _ t f

theorem slab_eq_15 (t : Fin 32768) (f : Fin 80) :
    W[main_v38] (ix3 t (0 : Fin 1) f) = W[main_v3] (ix2 (⟨t.val + 15, by omega⟩ : Fin 32786) f) := by
  rw [st_v38 V, st_v19 V]
  exact window_apply (⟨15, by omega⟩ : Fin 19) _ _ _ t f

theorem slab_eq_16 (t : Fin 32768) (f : Fin 80) :
    W[main_v39] (ix3 t (0 : Fin 1) f) = W[main_v3] (ix2 (⟨t.val + 16, by omega⟩ : Fin 32786) f) := by
  rw [st_v39 V, st_v20 V]
  exact window_apply (⟨16, by omega⟩ : Fin 19) _ _ _ t f

theorem slab_eq_17 (t : Fin 32768) (f : Fin 80) :
    W[main_v40] (ix3 t (0 : Fin 1) f) = W[main_v3] (ix2 (⟨t.val + 17, by omega⟩ : Fin 32786) f) := by
  rw [st_v40 V, st_v21 V]
  exact window_apply (⟨17, by omega⟩ : Fin 19) _ _ _ t f

theorem slab_eq_18 (t : Fin 32768) (f : Fin 80) :
    W[main_v41] (ix3 t (0 : Fin 1) f) = W[main_v3] (ix2 (⟨t.val + 18, by omega⟩ : Fin 32786) f) := by
  rw [st_v41 V, st_v22 V]
  exact window_apply (⟨18, by omega⟩ : Fin 19) _ _ _ t f

/-- The nineteen windows with their unit middle axis, by window. -/
def slabs (w : Fin 19) : S32768x1x80.Idx → EReal :=
    if w.val = 0 then W[main_v23] else
    if w.val = 1 then W[main_v24] else
    if w.val = 2 then W[main_v25] else
    if w.val = 3 then W[main_v26] else
    if w.val = 4 then W[main_v27] else
    if w.val = 5 then W[main_v28] else
    if w.val = 6 then W[main_v29] else
    if w.val = 7 then W[main_v30] else
    if w.val = 8 then W[main_v31] else
    if w.val = 9 then W[main_v32] else
    if w.val = 10 then W[main_v33] else
    if w.val = 11 then W[main_v34] else
    if w.val = 12 then W[main_v35] else
    if w.val = 13 then W[main_v36] else
    if w.val = 14 then W[main_v37] else
    if w.val = 15 then W[main_v38] else
    if w.val = 16 then W[main_v39] else
    if w.val = 17 then W[main_v40] else
    W[main_v41]

/-- Slab `w` at row `t` is row `t + w` of the rows. -/
theorem slab_eq (w : Fin 19) (t : Fin 32768) (f : Fin 80) :
    slabs V w (ix3 t (0 : Fin 1) f) = W[main_v3] (ix2 (⟨t.val + w.val, by omega⟩ : Fin 32786) f) := by
  obtain ⟨wv, hwv⟩ := w
  interval_cases wv
  · exact slab_eq_0 V t f
  · exact slab_eq_1 V t f
  · exact slab_eq_2 V t f
  · exact slab_eq_3 V t f
  · exact slab_eq_4 V t f
  · exact slab_eq_5 V t f
  · exact slab_eq_6 V t f
  · exact slab_eq_7 V t f
  · exact slab_eq_8 V t f
  · exact slab_eq_9 V t f
  · exact slab_eq_10 V t f
  · exact slab_eq_11 V t f
  · exact slab_eq_12 V t f
  · exact slab_eq_13 V t f
  · exact slab_eq_14 V t f
  · exact slab_eq_15 V t f
  · exact slab_eq_16 V t f
  · exact slab_eq_17 V t f
  · exact slab_eq_18 V t f

/-- The stack's entry (t, w, f) is slab `w` at (t, 0, f). -/
theorem stack_eq (t : Fin 32768) (w : Fin 19) (f : Fin 80) :
    W[main_v44] (ix3 t w f) = slabs V w (ix3 t (0 : Fin 1) f) := by
  rw [st_v44 V, st_v42 V, st_v43 V]
  exact stack_apply (slabs V) _ _ _ t w f

/-- The result's row `w · 80 + f` at step `t` is the stack's entry (t, w, f). -/
theorem out_eq (t : Fin 32768) (w : Fin 19) (f : Fin 80) (r : Fin 1520) (hr : r.val = w.val * 80 + f.val) :
    W[main_v47] (ix3 (0 : Fin 1) r t) = W[main_v44] (ix3 t w f) := by
  rw [st_v47 V, st_v46 V, st_v45 V]
  exact out_apply _ _ _ _ t w f r hr

/-- The result is the array of frames of the signal, filler zero. -/
theorem value_eq : W[main_v47] = Cert.Context.frames (0 : EReal) (V (Proc.devRef .tc main_arg0)) :=
  frames_of_stages (0 : EReal) (V (Proc.devRef .tc main_arg0)) W[main_v3] (slabs V) W[main_v44] W[main_v47]
    (rows_eq V) (slab_eq V) (stack_eq V) (out_eq V)

end Value

/-- On every device, from any memory with zero counters: every weakly fair execution of the reference program
    terminates with its result the array of frames of the signal (filler zero) and the signal unchanged. -/
theorem run (m : (l : Loc nD τ sig) → Buf (Elt Ideal) l) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
        = Cert.Context.frames (0 : EReal) (m ((c.tc : Thread nD τ).loc main_arg0))
      ∧ r.2.mem ((c.tc : Thread nD τ).loc main_arg0) = m ((c.tc : Thread nD τ).loc main_arg0)) :=
  (θ_run defs _ _).mono (fun _ h c =>
      ⟨((h c main_v47).trans (fin_apply (launchContents m c) main_v47)).trans (value_eq (launchContents m c)),
       ((h c main_arg0).trans (fin_apply (launchContents m c) main_arg0)).trans (st_arg0 (launchContents m c))⟩)
    (run_seq scopedRefs_eq scopedSems_eq defs main (fun _ => ops) main_eq (fun _ => ops_sub) m ρ)

end Cert.Context.Ref

end
-- ==== Proof.lean ====
/-
  The certificate of the sliding-window context kernel against its reference.

  Both programs turn a signal of 80 features over 32768 steps into 1520 rows over the same steps: row w · 80 + f at
  step t is feature f at step t + w − 9, for the nineteen offsets w − 9 = −9 … 9, and zero where the signal has no
  such step (`Cert.Context.frames`, Proof/Spec.lean). Nothing is computed: every entry of the result is an entry of the
  signal or zero, so the two results are equal as extended reals with no law of arithmetic used and the finiteness of
  the inputs never opened.

  The kernel pads the signal by 1024 steps each side, and at each of 32 grid points lays three consecutive blocks of
  the padded array side by side, rotates them by 2057 − w lanes and stores the first 1024 lanes as band w of the output
  block (Proof/Window.lean: one stored piece is a shifted read of the padded array; Proof/IdealValue.lean: the block
  written back is a block of `frames`, and the blocks tile the result). Its three input windows read ONE array, so the
  frame of each kernel program is proved over the launch for windows that share an array, the array's ownership dealt
  among them (Proof/KernelFrame.lean at the word level, Proof/IdealFrame.lean idealized).

  The reference pads nine zero rows each side of the transposed signal, takes nineteen slices of 32768 rows, stacks
  them and transposes back; its run is read one operation at a time (Proof/RefOps.lean … Proof/RefValue.lean).

  The idealization rewrote no operation, so that the idealized kernel is the kernel's sanctioned idealization holds
  trivially.
-/
import proofs.«145936_j53283364274940_2_alg».proof.Defs
import proofs.«145936_j53283364274940_2_alg».proof.Proof.KernelFrame
import proofs.«145936_j53283364274940_2_alg».proof.Proof.IdealFrame
import proofs.«145936_j53283364274940_2_alg».proof.Proof.IdealValue
import proofs.«145936_j53283364274940_2_alg».proof.Proof.RefValue
import proofs.«145936_j53283364274940_2_alg».proof.Proof.Gen.Kernel
import proofs.«145936_j53283364274940_2_alg».proof.Proof.Gen.KernelIdeal
import proofs.«145936_j53283364274940_2_alg».proof.Proof.Gen.ReferenceIdeal
import proofs.«145936_j53283364274940_2_alg».proof.Proof.Gen.Pre_finite_inputs
import Idealize.ShloMosaic.Lib.KernelVsHost
import Idealize.ShloMosaic.Adequacy
import Idealize.ShloMosaic.Init

noncomputable section

namespace Cert.Proof

open Idealize.ShloMosaic Idealize.ShloMosaic.TcCoe Idealize.SL.Sem

/-- The word-level kernel runs, and the signal ends as launched. -/
theorem frame_kernel : Cert.frame_Kernel := fun m ρ _ => Cert.Kernel.Hand.frame m ρ

/-- So does the idealized kernel. -/
theorem frame_ideal : Cert.frame_KernelIdeal := fun m ρ _ => Cert.KernelIdeal.Hand.frame m ρ

/-- The reference runs and writes no argument: its run with the result dropped. -/
theorem frame_reference : Cert.frame_ReferenceIdeal := fun m ρ _ =>
  (θ_run Cert.ReferenceIdeal.defs _ _).mono (fun _ h c => (h c).2) (Cert.Context.Ref.run m ρ)

/-- The ideal pass rewrote nothing. -/
theorem preserves : Cert.preserves_Kernel_KernelIdeal := trivial

/-- The filler the kernel pads with is the integer zero converted to a float: zero on the extended reals. -/
theorem filler_zero : Cert.KernelIdeal.Hand.filler (F := Ideal) = (0 : EReal) := by
  unfold Cert.KernelIdeal.Hand.filler
  exact sitofp_zero (φ := FTy.f32)

/-- From memories that agree on the signal both programs end with the result at `frames 0` of it. -/
theorem algebraic : Cert.algebraic_KernelIdeal_ReferenceIdeal := by
  intro m ρ m' ρ' _ hagree
  refine ⟨fun c => Cert.Context.frames (0 : EReal) (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Hand.run (F := Ideal) m ρ)
    rw [filler_zero]
  · refine (θ_run Cert.ReferenceIdeal.defs _ _).mono (fun _ h c => ⟨(h c).1.trans ?_, (h c).2⟩)
      (Cert.Context.Ref.run m' ρ')
    rw [hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
